-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x14x14 : Shape := ⟨4, ![32, 256, 14, 14]⟩
abbrev S32x1024x14x14 : Shape := ⟨4, ![32, 1024, 14, 14]⟩
abbrev S1024x256x1x1 : Shape := ⟨4, ![1024, 256, 1, 1]⟩
abbrev S1024 : Shape := ⟨1, ![1024]⟩
abbrev S256x1024x1x1 : Shape := ⟨4, ![256, 1024, 1, 1]⟩
abbrev S_ : Shape := ⟨0, ![]⟩

class Facts : Prop where
  bcast_S_S32x256x14x14 : S_.BroadcastsInDim S32x256x14x14 (![] : Fin 0 → Fin S32x256x14x14.rank)
  reducesTo_S32x256x14x14_S_d0_1_2_3 : S32x256x14x14.ReducesTo [0, 1, 2, 3] S_
  h_S_ : 0 < S_.numel
  bcast_S_S32x1024x14x14 : S_.BroadcastsInDim S32x1024x14x14 (![] : Fin 0 → Fin S32x1024x14x14.rank)
  reducesTo_S32x1024x14x14_S_d0_1_2_3 : S32x1024x14x14.ReducesTo [0, 1, 2, 3] S_
  bcast_S_S1024x256x1x1 : S_.BroadcastsInDim S1024x256x1x1 (![] : Fin 0 → Fin S1024x256x1x1.rank)
  reducesTo_S1024x256x1x1_S_d0_1_2_3 : S1024x256x1x1.ReducesTo [0, 1, 2, 3] S_
  bcast_S_S1024 : S_.BroadcastsInDim S1024 (![] : Fin 0 → Fin S1024.rank)
  reducesTo_S1024_S_d0 : S1024.ReducesTo [0] S_
  bcast_S_S256x1024x1x1 : S_.BroadcastsInDim S256x1024x1x1 (![] : Fin 0 → Fin S256x1024x1x1.rank)
  reducesTo_S256x1024x1x1_S_d0_1_2_3 : S256x1024x1x1.ReducesTo [0, 1, 2, 3] S_

variable [Facts]

def fn_part2 {F : FTy → Type} [FloatOps F] (main_arg6 : FVec F S1024 .f32) (main_arg7 : FVec F S256x1024x1x1 .f32) (main_v33 : IVec S_ 1) : IVec S_ 1 :=
  let main_v34 : FVec F S256x1024x1x1 .f32 := Host.absf main_arg7
  let main_cst_12 : FVec F S_ .f32 := constant S_ .f32 0x7F800000#32
  let main_v35 : FVec F S256x1024x1x1 .f32 := broadcastInDim S256x1024x1x1 ![] bcast_S_S256x1024x1x1 main_cst_12
  let main_v36 : IVec S256x1024x1x1 1 := cmpf .olt main_v34 main_v35
  let main_c_13 : IVec S_ 1 := constantI S_ 1 1#1
  let main_v37 : IVec S_ 1 := (fun x v => Host.reduce IntOp.andi x v reducesTo_S256x1024x1x1_S_d0_1_2_3 h_S_) main_v36 main_c_13
  let main_v38 : IVec S_ 1 := andi main_v33 main_v37
  let main_cst_14 : FVec F S_ .f32 := constant S_ .f32 0x00000000#32
  let main_v39 : FVec F S1024 .f32 := broadcastInDim S1024 ![] bcast_S_S1024 main_cst_14
  let main_v40 : IVec S1024 1 := cmpf .oge main_arg6 main_v39
  let main_c_15 : IVec S_ 1 := constantI S_ 1 1#1
  let main_v41 : IVec S_ 1 := (fun x v => Host.reduce IntOp.andi x v reducesTo_S1024_S_d0 h_S_) main_v40 main_c_15
  let main_v42 : IVec S_ 1 := andi main_v38 main_v41
  main_v42

def fn_part1 {F : FTy → Type} [FloatOps F] (main_arg4 : FVec F S1024 .f32) (main_arg5 : FVec F S1024 .f32) (main_arg6 : FVec F S1024 .f32) (main_arg7 : FVec F S256x1024x1x1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg6 main_arg7 main_v33

def fn {F : FTy → Type} [FloatOps F] (main_arg0 : FVec F S32x256x14x14 .f32) (main_arg1 : FVec F S32x1024x14x14 .f32) (main_arg2 : FVec F S1024x256x1x1 .f32) (main_arg3 : FVec F S1024 .f32) (main_arg4 : FVec F S1024 .f32) (main_arg5 : FVec F S1024 .f32) (main_arg6 : FVec F S1024 .f32) (main_arg7 : FVec F S256x1024x1x1 .f32) : IVec S_ 1 :=
  let main_v0 : FVec F S32x256x14x14 .f32 := Host.absf main_arg0
  let main_cst : FVec F S_ .f32 := constant S_ .f32 0x7F800000#32
  let main_v1 : FVec F S32x256x14x14 .f32 := broadcastInDim S32x256x14x14 ![] bcast_S_S32x256x14x14 main_cst
  let main_v2 : IVec S32x256x14x14 1 := cmpf .olt main_v0 main_v1
  let main_c : IVec S_ 1 := constantI S_ 1 1#1
  let main_v3 : IVec S_ 1 := (fun x v => Host.reduce IntOp.andi x v reducesTo_S32x256x14x14_S_d0_1_2_3 h_S_) main_v2 main_c
  let main_v4 : FVec F S32x1024x14x14 .f32 := Host.absf main_arg1
  let main_cst_0 : FVec F S_ .f32 := constant S_ .f32 0x7F800000#32
  let main_v5 : FVec F S32x1024x14x14 .f32 := broadcastInDim S32x1024x14x14 ![] bcast_S_S32x1024x14x14 main_cst_0
  let main_v6 : IVec S32x1024x14x14 1 := cmpf .olt main_v4 main_v5
  let main_c_1 : IVec S_ 1 := constantI S_ 1 1#1
  let main_v7 : IVec S_ 1 := (fun x v => Host.reduce IntOp.andi x v reducesTo_S32x1024x14x14_S_d0_1_2_3 h_S_) main_v6 main_c_1
  let main_v8 : IVec S_ 1 := andi main_v3 main_v7
  let main_v9 : FVec F S1024x256x1x1 .f32 := Host.absf main_arg2
  let main_cst_2 : FVec F S_ .f32 := constant S_ .f32 0x7F800000#32
  let main_v10 : FVec F S1024x256x1x1 .f32 := broadcastInDim S1024x256x1x1 ![] bcast_S_S1024x256x1x1 main_cst_2
  let main_v11 : IVec S1024x256x1x1 1 := cmpf .olt main_v9 main_v10
  let main_c_3 : IVec S_ 1 := constantI S_ 1 1#1
  let main_v12 : IVec S_ 1 := (fun x v => Host.reduce IntOp.andi x v reducesTo_S1024x256x1x1_S_d0_1_2_3 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x256x14x14 : Shape := ⟨4, ![32, 256, 14, 14]⟩
abbrev S32x1024x14x14 : Shape := ⟨4, ![32, 1024, 14, 14]⟩
abbrev S1024x256x1x1 : Shape := ⟨4, ![1024, 256, 1, 1]⟩
abbrev S1024 : Shape := ⟨1, ![1024]⟩
abbrev S256x1024x1x1 : Shape := ⟨4, ![256, 1024, 1, 1]⟩
abbrev S14x14x32x256 : Shape := ⟨4, ![14, 14, 32, 256]⟩
abbrev S6272x256 : Shape := ⟨2, ![6272, 256]⟩
abbrev S14x14x32x1024 : Shape := ⟨4, ![14, 14, 32, 1024]⟩
abbrev S6272x1024 : Shape := ⟨2, ![6272, 1024]⟩
abbrev S_ : Shape := ⟨0, ![]⟩
abbrev S1x1024 : Shape := ⟨2, ![1, 1024]⟩
abbrev S1024x256 : Shape := ⟨2, ![1024, 256]⟩
abbrev S1024x1 : Shape := ⟨2, ![1024, 1]⟩
abbrev S256x1024 : Shape := ⟨2, ![256, 1024]⟩
abbrev S784x256 : Shape := ⟨2, ![784, 256]⟩
abbrev S784x1024 : Shape := ⟨2, ![784, 1024]⟩

abbrev nBuf : Space → Nat
  | .hbm => 30
  | .vmem => 9
  | .smem => 0
  | _ => 0

abbrev bufTy : (tb : Table) → Fin (tcTables nBuf tb) → BufTy
  | .hbm, ⟨0, _⟩ => ⟨S32x256x14x14, .f32⟩
  | .hbm, ⟨1, _⟩ => ⟨S32x1024x14x14, .f32⟩
  | .hbm, ⟨2, _⟩ => ⟨S1024x256x1x1, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S256x1024x1x1, .f32⟩
  | .hbm, ⟨8, _⟩ => ⟨S14x14x32x256, .f32⟩
  | .hbm, ⟨9, _⟩ => ⟨S6272x256, .f32⟩
  | .hbm, ⟨10, _⟩ => ⟨S14x14x32x1024, .f32⟩
  | .hbm, ⟨11, _⟩ => ⟨S6272x1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S1024x256, .f32⟩
  | .hbm, ⟨21, _⟩ => ⟨S1024x1, .f32⟩
  | .hbm, ⟨22, _⟩ => ⟨S1024x256, .f32⟩
  | .hbm, ⟨23, _⟩ => ⟨S1024x256, .f32⟩
  | .hbm, ⟨24, _⟩ => ⟨S1024x256, .bf16⟩
  | .hbm, ⟨25, _⟩ => ⟨S256x1024, .f32⟩
  | .hbm, ⟨26, _⟩ => ⟨S256x1024, .bf16⟩
  | .hbm, ⟨27, _⟩ => ⟨S6272x256, .f32⟩
  | .hbm, ⟨28, _⟩ => ⟨S14x14x32x256, .f32⟩
  | .hbm, ⟨29, _⟩ => ⟨S32x256x14x14, .f32⟩
  | .local _ .vmem, ⟨0, _⟩ => ⟨S784x256, .f32⟩
  | .local _ .vmem, ⟨1, _⟩ => ⟨S784x256, .f32⟩
  | .local _ .vmem, ⟨2, _⟩ => ⟨S784x1024, .f32⟩
  | .local _ .vmem, ⟨3, _⟩ => ⟨S784x1024, .f32⟩
  | .local _ .vmem, ⟨4, _⟩ => ⟨S1024x256, .bf16⟩
  | .local _ .vmem, ⟨5, _⟩ => ⟨S1x1024, .f32⟩
  | .local _ .vmem, ⟨6, _⟩ => ⟨S256x1024, .bf16⟩
  | .local _ .vmem, ⟨7, _⟩ => ⟨S784x256, .f32⟩
  | .local _ .vmem, ⟨8, _⟩ => ⟨S784x256, .f32⟩
  | _, _ => ⟨S32x256x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S784x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S784x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S784x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x256x14x14_S14x14x32x256_2_3_0_1 : S32x256x14x14.Transposes [2, 3, 0, 1] S14x14x32x256
  shapeCasts_S14x14x32x256_S6272x256 : S14x14x32x256.ShapeCasts S6272x256
  transposes_S32x1024x14x14_S14x14x32x1024_2_3_0_1 : S32x1024x14x14.Transposes [2, 3, 0, 1] S14x14x32x1024
  shapeCasts_S14x14x32x1024_S6272x1024 : S14x14x32x1024.ShapeCasts S6272x1024
  bcast_S_S1024 : S_.BroadcastsInDim S1024 (![] : Fin 0 → Fin S1024.rank)
  bcast_S1024_S1x1024_1 : S1024.BroadcastsInDim S1x1024 (![1] : Fin 1 → Fin S1x1024.rank)
  shapeCasts_S1024x256x1x1_S1024x256 : S1024x256x1x1.ShapeCasts S1024x256
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bitsLt_bf16_f32 : FTy.bits .bf16 < FTy.bits .f32
  shapeCasts_S256x1024x1x1_S256x1024 : S256x1024x1x1.ShapeCasts S256x1024
  inb_S784x256_S784x256_0_0 : ∀ a, (![0, 0] : Fin 2 → Nat) a + S784x256.size a ≤ S784x256.size a
  h_S784x256 : 0 < S784x256.numel
  shapeCasts_S784x256_S784x256 : S784x256.ShapeCasts S784x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S784x1024 : S1x1024.Broadcasts S784x1024
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S6272x256_S14x14x32x256 : S6272x256.ShapeCasts S14x14x32x256
  transposes_S14x14x32x256_S32x256x14x14_2_3_0_1 : S14x14x32x256.Transposes [2, 3, 0, 1] S32x256x14x14
  dot_S784x256_S1024x256_S784x1024_1_1_0_0_n_n_wf : DotDims.WF S784x256 S1024x256 S784x1024 [1] [1] [0] [0] [] []
  dot_S784x1024_S256x1024_S784x256_1_1_0_0_n_n_wf : DotDims.WF S784x1024 S256x1024 S784x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x256.size a ≤ S6272x256.size a
  hwx0_0 : ∀ i : grid0.Coords, EltTy.bits .f32 = 32 ∨ (Rect.block (s := S6272x256) S784x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S6272x1024.size a
  hwx0_1 : ∀ i : grid0.Coords, EltTy.bits .f32 = 32 ∨ (Rect.block (s := S6272x1024) S784x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S784x256.size a ≤ S6272x256.size a
  hwx0_5 : ∀ i : grid0.Coords, EltTy.bits .f32 = 32 ∨ (Rect.block (s := S6272x256) S784x256.size (cc0_transform_5 i) (hinb0_5 i)).WholeWords (EltTy.packing .f32)

variable [Facts₀]

def dot_S784x256_S1024x256_S784x1024_1_1_0_0_n_n : DotDims S784x256 S1024x256 S784x1024 where
  lhsContracting := [1]
  rhsContracting := [1]
  lhsNonContracting := [0]
  rhsNonContracting := [0]
  lhsBatch := []
  rhsBatch := []
  wf := dot_S784x256_S1024x256_S784x1024_1_1_0_0_n_n_wf
def dot_S784x1024_S256x1024_S784x256_1_1_0_0_n_n : DotDims S784x1024 S256x1024 S784x256 where
  lhsContracting := [1]
  rhsContracting := [1]
  lhsNonContracting := [0]
  rhsNonContracting := [0]
  lhsBatch := []
  rhsBatch := []
  wf := dot_S784x1024_S256x1024_S784x256_1_1_0_0_n_n_wf

abbrev win0_0 : Pipeline.Window sig grid0 :=
  Pipeline.Window.ofSpec (Memref.whole main_v1) S784x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S784x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S784x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x14x14 : Shape := ⟨4, ![32, 256, 14, 14]⟩
abbrev S32x1024x14x14 : Shape := ⟨4, ![32, 1024, 14, 14]⟩
abbrev S1024x256x1x1 : Shape := ⟨4, ![1024, 256, 1, 1]⟩
abbrev S1024 : Shape := ⟨1, ![1024]⟩
abbrev S256x1024x1x1 : Shape := ⟨4, ![256, 1024, 1, 1]⟩
abbrev S32x256x196 : Shape := ⟨3, ![32, 256, 196]⟩
abbrev S32x1024x196 : Shape := ⟨3, ![32, 1024, 196]⟩
abbrev S_ : Shape := ⟨0, ![]⟩
abbrev S32x256x256 : Shape := ⟨3, ![32, 256, 256]⟩
abbrev S32x1024x256 : Shape := ⟨3, ![32, 1024, 256]⟩
abbrev S1024x1 : Shape := ⟨2, ![1024, 1]⟩
abbrev S1024x256 : Shape := ⟨2, ![1024, 256]⟩
abbrev S256x1024 : Shape := ⟨2, ![256, 1024]⟩
abbrev S1x256x128 : Shape := ⟨3, ![1, 256, 128]⟩
abbrev S1x1024x128 : Shape := ⟨3, ![1, 1024, 128]⟩
abbrev S256x128 : Shape := ⟨2, ![256, 128]⟩
abbrev S256x256 : Shape := ⟨2, ![256, 256]⟩
abbrev S256x1 : Shape := ⟨2, ![256, 1]⟩

abbrev nBuf : Space → Nat
  | .hbm => 34
  | .vmem => 9
  | .smem => 0
  | _ => 0

abbrev bufTy : (tb : Table) → Fin (tcTables nBuf tb) → BufTy
  | .hbm, ⟨0, _⟩ => ⟨S32x256x14x14, .f32⟩
  | .hbm, ⟨1, _⟩ => ⟨S32x1024x14x14, .f32⟩
  | .hbm, ⟨2, _⟩ => ⟨S1024x256x1x1, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S256x1024x1x1, .f32⟩
  | .hbm, ⟨8, _⟩ => ⟨S32x256x196, .f32⟩
  | .hbm, ⟨9, _⟩ => ⟨S32x1024x196, .f32⟩
  | .hbm, ⟨10, _⟩ => ⟨S_, .i32⟩
  | .hbm, ⟨11, _⟩ => ⟨S_, .f32⟩
  | .hbm, ⟨12, _⟩ => ⟨S32x256x256, .f32⟩
  | .hbm, ⟨13, _⟩ => ⟨S_, .i32⟩
  | .hbm, ⟨14, _⟩ => ⟨S_, .f32⟩
  | .hbm, ⟨15, _⟩ => ⟨S32x1024x256, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024x1, .f32⟩
  | .hbm, ⟨24, _⟩ => ⟨S1024x256, .f32⟩
  | .hbm, ⟨25, _⟩ => ⟨S1024x1, .f32⟩
  | .hbm, ⟨26, _⟩ => ⟨S1024x256, .f32⟩
  | .hbm, ⟨27, _⟩ => ⟨S1024x256, .f32⟩
  | .hbm, ⟨28, _⟩ => ⟨S1024x256, .bf16⟩
  | .hbm, ⟨29, _⟩ => ⟨S256x1024, .f32⟩
  | .hbm, ⟨30, _⟩ => ⟨S256x1024, .bf16⟩
  | .hbm, ⟨31, _⟩ => ⟨S32x256x256, .f32⟩
  | .hbm, ⟨32, _⟩ => ⟨S32x256x196, .f32⟩
  | .hbm, ⟨33, _⟩ => ⟨S32x256x14x14, .f32⟩
  | .local _ .vmem, ⟨0, _⟩ => ⟨S1x256x128, .f32⟩
  | .local _ .vmem, ⟨1, _⟩ => ⟨S1x256x128, .f32⟩
  | .local _ .vmem, ⟨2, _⟩ => ⟨S1024x256, .bf16⟩
  | .local _ .vmem, ⟨3, _⟩ => ⟨S1024x1, .f32⟩
  | .local _ .vmem, ⟨4, _⟩ => ⟨S1x1024x128, .f32⟩
  | .local _ .vmem, ⟨5, _⟩ => ⟨S1x1024x128, .f32⟩
  | .local _ .vmem, ⟨6, _⟩ => ⟨S256x1024, .bf16⟩
  | .local _ .vmem, ⟨7, _⟩ => ⟨S1x256x128, .f32⟩
  | .local _ .vmem, ⟨8, _⟩ => ⟨S1x256x128, .f32⟩
  | _, _ => ⟨S32x256x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S32x256x14x14_S32x256x196 : S32x256x14x14.ShapeCasts S32x256x196
  shapeCasts_S32x1024x14x14_S32x1024x196 : S32x1024x14x14.ShapeCasts S32x1024x196
  pads_S32x256x196_S32x256x256_000_000_0600 : S32x256x196.Pads (![0, 0, 0] : Fin 3 → Nat) ![0, 0, 60] ![0, 0, 0] S32x256x256
  h_S_ : 0 < S_.numel
  pads_S32x1024x196_S32x1024x256_000_000_0600 : S32x1024x196.Pads (![0, 0, 0] : Fin 3 → Nat) ![0, 0, 60] ![0, 0, 0] S32x1024x256
  bcast_S_S1024 : S_.BroadcastsInDim S1024 (![] : Fin 0 → Fin S1024.rank)
  shapeCasts_S1024_S1024x1 : S1024.ShapeCasts S1024x1
  shapeCasts_S1024x256x1x1_S1024x256 : S1024x256x1x1.ShapeCasts S1024x256
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bitsLt_bf16_f32 : FTy.bits .bf16 < FTy.bits .f32
  shapeCasts_S256x1024x1x1_S256x1024 : S256x1024x1x1.ShapeCasts S256x1024
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1024x256_S256x256_0_0 : ∀ a, (![0, 0] : Fin 2 → Nat) a + S256x256.size a ≤ S1024x256.size a
  h_S256x256 : 0 < S256x256.numel
  shapeCasts_S256x256_S256x256 : S256x256.ShapeCasts S256x256
  inb_S1024x1_S256x1_0_0 : ∀ a, (![0, 0] : Fin 2 → Nat) a + S256x1.size a ≤ S1024x1.size a
  h_S256x1 : 0 < S256x1.numel
  shapeCasts_S256x1_S256x1 : S256x1.ShapeCasts S256x1
  broadcasts_S256x1_S256x128 : S256x1.Broadcasts S256x128
  inb_S1x1024x128_S1x256x128_0_0_0 : ∀ a, (![0, 0, 0] : Fin 3 → Nat) a + S1x256x128.size a ≤ S1x1024x128.size a
  inb_S256x1024_S256x256_0_0 : ∀ a, (![0, 0] : Fin 2 → Nat) a + S256x256.size a ≤ S256x1024.size a
  inb_S1024x256_S256x256_256_0 : ∀ a, (![256, 0] : Fin 2 → Nat) a + S256x256.size a ≤ S1024x256.size a
  inb_S1024x1_S256x1_256_0 : ∀ a, (![256, 0] : Fin 2 → Nat) a + S256x1.size a ≤ S1024x1.size a
  inb_S1x1024x128_S1x256x128_0_256_0 : ∀ a, (![0, 256, 0] : Fin 3 → Nat) a + S1x256x128.size a ≤ S1x1024x128.size a
  inb_S256x1024_S256x256_0_256 : ∀ a, (![0, 256] : Fin 2 → Nat) a + S256x256.size a ≤ S256x1024.size a
  inb_S1024x256_S256x256_512_0 : ∀ a, (![512, 0] : Fin 2 → Nat) a + S256x256.size a ≤ S1024x256.size a
  inb_S1024x1_S256x1_512_0 : ∀ a, (![512, 0] : Fin 2 → Nat) a + S256x1.size a ≤ S1024x1.size a
  inb_S1x1024x128_S1x256x128_0_512_0 : ∀ a, (![0, 512, 0] : Fin 3 → Nat) a + S1x256x128.size a ≤ S1x1024x128.size a
  inb_S256x1024_S256x256_0_512 : ∀ a, (![0, 512] : Fin 2 → Nat) a + S256x256.size a ≤ S256x1024.size a
  inb_S1024x256_S256x256_768_0 : ∀ a, (![768, 0] : Fin 2 → Nat) a + S256x256.size a ≤ S1024x256.size a
  inb_S1024x1_S256x1_768_0 : ∀ a, (![768, 0] : Fin 2 → Nat) a + S256x1.size a ≤ S1024x1.size a
  inb_S1x1024x128_S1x256x128_0_768_0 : ∀ a, (![0, 768, 0] : Fin 3 → Nat) a + S1x256x128.size a ≤ S1x1024x128.size a
  inb_S256x1024_S256x256_0_768 : ∀ a, (![0, 768] : Fin 2 → Nat) a + S256x256.size a ≤ S256x1024.size a
  shapeCasts_S256x128_S1x256x128 : S256x128.ShapeCasts S1x256x128
  slices_S32x256x256_S32x256x196_0_0_0 : S32x256x256.Slices ![0, 0, 0] S32x256x196
  shapeCasts_S32x256x196_S32x256x14x14 : S32x256x196.ShapeCasts S32x256x14x14
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S32x256x256.size a
  hwx0_0 : ∀ i : grid0.Coords, EltTy.bits .f32 = 32 ∨ (Rect.block (s := S32x256x256) S1x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x1024x256.size a
  hwx0_3 : ∀ i : grid0.Coords, EltTy.bits .f32 = 32 ∨ (Rect.block (s := S32x1024x256) S1x1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x128.size a ≤ S32x256x256.size a
  hwx0_5 : ∀ i : grid0.Coords, EltTy.bits .f32 = 32 ∨ (Rect.block (s := S32x256x256) S1x256x128.size (cc0_transform_5 i) (hinb0_5 i)).WholeWords (EltTy.packing .f32)

variable [Facts₀]

def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_v2) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The mathematics both programs compute, stated once, with no program in sight.

  A bottleneck block in channels: for a pixel (n, h, w) and a middle channel cm,

      hid cm = max (Σ_ci x[n,ci,h,w] · (w1[cm,ci] · sc cm) + (β cm − mean cm · sc cm) + skip[n,cm,h,w]) 0

  and the result at (n, co, h, w) is Σ_cm hid cm · w2[co,cm].  Here sc is the batch-norm scale folded into the first
  convolution's rows.  One program computes it as γ · rsqrt (var + ε), the other as γ / sqrt (var + ε); on the extended
  reals these are one number exactly when var + ε is not below zero, and not both zero with γ — which a variance that
  is not negative guarantees, ε being a positive real.  That law (scale_eq) is the only place the two programs differ
  in value; everything else is a regrouping of sums and a commuting of products.
-/
import Idealize.ShloMosaic.PureOps.Ideal
import Idealize.ShloMosaic.Lib.ValueIdx

noncomputable section

namespace Cert.Bottleneck

open Idealize.ShloMosaic Idealize.ShloMosaic.ValueIdx
open scoped BigOperators

/-- The shapes of the eight arguments and of the result. -/
abbrev SX : Shape := ⟨4, ![32, 256, 14, 14]⟩
abbrev SS : Shape := ⟨4, ![32, 1024, 14, 14]⟩
abbrev SW1 : Shape := ⟨4, ![1024, 256, 1, 1]⟩
abbrev SW2 : Shape := ⟨4, ![256, 1024, 1, 1]⟩
abbrev SC : Shape := ⟨1, ![1024]⟩

/-- The stabiliser ε both programs add to the variance, as the extended real its pattern denotes. -/
abbrev eps : EReal := Ideal.ofBits .f32 0x3727C5AC#32

/-- ε is the dyadic 10995116 / 2^40 (just under 1e-5). -/
theorem eps_eq : eps = ((10995116 / 1099511627776 : ℝ) : EReal) := by
  simp [eps, Ideal.ofBits, Ideal.ieee, -EReal.coe_mul]; norm_num

/-- ε is a positive real. -/
theorem eps_pos : ∃ e : ℝ, 0 < e ∧ eps = (e : EReal) := ⟨_, by norm_num, eps_eq⟩

/-- The folded scale as the first program computes it: γ · (var + ε)^(-1/2). -/
def scaleMul (γ var : SC.Idx → EReal) (cm : Fin 1024) : EReal :=
  γ (ix1 cm) * Ideal.rsqrt (var (ix1 cm) + eps)

/-- The folded scale as the second program computes it: γ / sqrt (var + ε). -/
def scaleDiv (γ var : SC.Idx → EReal) (cm : Fin 1024) : EReal :=
  Ideal.div (γ (ix1 cm)) (Ideal.sqrt (var (ix1 cm) + eps))

/-- For a variance that is not negative the product with the reciprocal root is the quotient by the root: on a real
    variance r both are γ · (√(r + e))⁻¹, the root being a nonzero real; at an infinite variance both are γ · 0. -/
theorem scale_eq (e : ℝ) (he : 0 < e) (γ v : EReal) (hv : 0 ≤ v) :
    γ * Ideal.rsqrt (v + (e : EReal)) = Ideal.div γ (Ideal.sqrt (v + (e : EReal))) := by
  induction v using EReal.rec with
  | bot => exact absurd hv (by simp)
  | top =>
    rw [EReal.top_add_coe]
    simp [Ideal.div]
  | coe r =>
    have hr : 0 ≤ r := by exact_mod_cast hv
    have hpos : 0 < r + e := by linarith
    have hs : Real.sqrt (r + e) ≠ 0 := (Real.sqrt_pos.mpr hpos).ne'
    rw [← EReal.coe_add, Ideal.rsqrt_coe, Ideal.sqrt_coe, if_neg (not_lt.mpr hpos.le), if_neg hpos.ne',
      if_neg (not_lt.mpr hpos.le), Ideal.div_coe hs, one_div]

/-- So under a variance that is nowhere negative the two folded scales are one vector. -/
theorem scaleMul_eq_scaleDiv (γ var : SC.Idx → EReal) (hvar : ∀ cm : Fin 1024, 0 ≤ var (ix1 cm)) :
    scaleMul γ var = scaleDiv γ var := by
  obtain ⟨e, he, hE⟩ := eps_pos
  funext cm
  unfold scaleMul scaleDiv
  rw [hE]
  exact scale_eq e he _ _ (hvar cm)

/-- The hidden activation of a pixel in a middle channel, after the folded batch norm, the skip and the ReLU. -/
def hid (x : SX.Idx → EReal) (s : SS.Idx → EReal) (w1 : SW1.Idx → EReal) (β mean : SC.Idx → EReal)
    (sc : Fin 1024 → EReal) (n : Fin 32) (h w : Fin 14) (cm : Fin 1024) : EReal :=
  max ((∑ ci : Fin 256, x (ix4 n ci h w) * (w1 (ix4 cm ci 0 0) * sc cm))
        + (β (ix1 cm) - mean (ix1 cm) * sc cm) + s (ix4 n cm h w)) 0

/-- The block's result: the second 1×1 convolution of the hidden activation. -/
def G (x : SX.Idx → EReal) (s : SS.Idx → EReal) (w1 : SW1.Idx → EReal) (w2 : SW2.Idx → EReal)
    (β mean : SC.Idx → EReal) (sc : Fin 1024 → EReal) : SX.Idx → EReal :=
  fun i => ∑ cm : Fin 1024, hid x s w1 β mean sc (i 0) (i 2) (i 3) cm * w2 (ix4 (i 1) cm 0 0)

end Cert.Bottleneck

end
-- ==== Proof.PreRead.lean ====
/-
  What the precondition says about the variance.

  The precondition is one bit: the conjunction, over all eight arguments, of "every entry is finite", and last of all
  "every entry of the variance is at least zero".  A conjunction that is 1 has every conjunct 1; a reduction by "and"
  that is 1 had a 1 at every entry; and the comparison "at least" on the extended reals is 1 exactly when the order
  holds.  So under the precondition every entry of the variance is at least the zero pattern's value, which is 0.
-/
import proofs.«148798_g2000004446570603_pallasbulk_806_6_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.PreRead

open Idealize.ShloMosaic Idealize.ShloMosaic.ValueIdx Cert.Pre_finite_inputs

/-- The comparison "at least" answers 1 only when the order holds. -/
theorem le_of_cmp_oge {x y : EReal} (h : Ideal.cmp .oge x y = 1#1) : y ≤ x := by
  by_contra hn
  have h0 : Ideal.cmp .oge x y = 0#1 := by
    show BitVec.ofBool (decide (y ≤ x)) = 0#1
    rw [decide_eq_false hn]; rfl
  rw [h0] at h
  exact absurd h (by decide)

/-- A scalar has one index. -/
instance : Subsingleton S_.Idx := ⟨fun a b => funext fun d => d.elim0⟩

variable [Cert.Pre_finite_inputs.Facts]
open Cert.Pre_finite_inputs.Facts

/-- Under the precondition every entry of the variance (the seventh argument) is at least zero. -/
theorem var_nonneg (a0 : FVec Ideal S32x256x14x14 .f32) (a1 : FVec Ideal S32x1024x14x14 .f32)
    (a2 : FVec Ideal S1024x256x1x1 .f32) (a3 a4 a5 a6 : FVec Ideal S1024 .f32) (a7 : FVec Ideal S256x1024x1x1 .f32)
    (h : fn (F := Ideal) a0 a1 a2 a3 a4 a5 a6 a7 = fun _ => 1#1) (cm : Fin 1024) : (0 : EReal) ≤ a6 (ix1 cm) := by
  have e := congrFun h ix0
  unfold fn fn_part1 fn_part2 at e
  have e2 : Host.reduce IntOp.andi (cmpf .oge a6 (broadcastInDim S1024 ![] bcast_S_S1024 (constant (F := Ideal) S_ .f32 0x00000000#32)))
      (constantI S_ 1 1#1) reducesTo_S1024_S_d0 h_S_ ix0 = 1#1 := (IntOp.andi_eq_one.mp e).2
  have e3 := Host.reduce_andi_all _ _ _ _ ix0 e2 (ix1 cm)
  have e4 : Ideal.cmp .oge (a6 (ix1 cm)) (Ideal.ofBits .f32 0x00000000#32) = 1#1 := e3
  have e5 := le_of_cmp_oge e4
  rwa [Ideal.ofBits_zero_f32] at e5

end Cert.PreRead

end
-- ==== Proof.KHost.lean ====
/-
  The five arrays the fused region is launched on, read at coordinates, as functions of the program's arguments.

  The program works channels-last: a pixel (n, h, w) becomes the row (h·14 + w)·32 + n of a 6272-row matrix, and a
  channel its column.  So the activation matrix at (row, ci) is x[n, ci, h, w], the skip matrix at (row, cm) is
  skip[n, cm, h, w]; the first weight at (cm, ci) is w1[cm, ci] times the folded scale of channel cm; the bias row
  at cm is β cm − mean cm · scale cm; the second weight at (co, cm) is w2[co, cm].
-/
import proofs.«148798_g2000004446570603_pallasbulk_806_6_alg».proof.Proof.Gen.KernelIdeal.Frame
import proofs.«148798_g2000004446570603_pallasbulk_806_6_alg».proof.Proof.Spec
import Idealize.ShloMosaic.Lib.ValueIdx
import Idealize.ShloMosaic.Lib.Pipeline.Value
import Idealize.ShloMosaic.Lib.StableHlo.Run

noncomputable section

namespace Cert.KernelIdeal.KValue

open Idealize.ShloMosaic Idealize.ShloMosaic.TcCoe Idealize.SL.Sem Idealize.ShloMosaic.ValueIdx
open Cert.KernelIdeal Cert.KernelIdeal.Gen Cert.Bottleneck

variable (m : (ℓ : Loc nD τ sig) → Buf (Elt Ideal) ℓ)

/-- The eight arguments as launched on core c, each as a function of its index into the extended reals. -/
abbrev aX (c : Dev nD) : SX.Idx → EReal := m ((c : Thread nD τ).loc main_arg0)
abbrev aSkip (c : Dev nD) : SS.Idx → EReal := m ((c : Thread nD τ).loc main_arg1)
abbrev aW1 (c : Dev nD) : SW1.Idx → EReal := m ((c : Thread nD τ).loc main_arg2)
abbrev aGamma (c : Dev nD) : SC.Idx → EReal := m ((c : Thread nD τ).loc main_arg3)
abbrev aBeta (c : Dev nD) : SC.Idx → EReal := m ((c : Thread nD τ).loc main_arg4)
abbrev aMean (c : Dev nD) : SC.Idx → EReal := m ((c : Thread nD τ).loc main_arg5)
abbrev aVar (c : Dev nD) : SC.Idx → EReal := m ((c : Thread nD τ).loc main_arg6)
abbrev aW2 (c : Dev nD) : SW2.Idx → EReal := m ((c : Thread nD τ).loc main_arg7)

/-- The activation matrix: row (h·14 + w)·32 + n, column ci, is x[n, ci, h, w] (a transpose to (h, w, n, ci), then the
    rows flattened in row-major order). -/
theorem x_at (c : Dev nD) (h w : Fin 14) (n : Fin 32) (ci : Fin 256) (r : Fin 6272)
    (hr : r.val = (h.val * 14 + w.val) * 32 + n.val) :
    (V m c main_v1 : S6272x256.Idx → EReal) (ix2 r ci)
      = aX m c (ix4 n ci h w) := by
  have e : (V m c main_v1 : S6272x256.Idx → EReal)
      = shapeCast S6272x256 (transpose S14x14x32x256 [2, 3, 0, 1] (m ((c : Thread nD τ).loc main_arg0))
          transposes_S32x256x14x14_S14x14x32x256_2_3_0_1) shapeCasts_S14x14x32x256_S6272x256 := by
    show StableHlo.after hostOps0 (fun b => m (c, b)) (Proc.devRef .tc main_v1) = _
    after_results; rfl
  rw [e]
  refine (shapeCast_apply _ _ (ix2 r ci) (ix4 h w n ci) ?_).trans ?_
  · rw [Shape.rowMajor_val_four, Shape.rowMajor_val_two]
    show ((h.val * 14 + w.val) * 32 + n.val) * 256 + ci.val = r.val * 256 + ci.val
    rw [hr]
  · exact transpose_apply _ _ _ (ix4 h w n ci) (ix4 n ci h w) (fun b => by
      match b with
      | ⟨0, _⟩ => rfl
      | ⟨1, _⟩ => rfl
      | ⟨2, _⟩ => rfl
      | ⟨3, _⟩ => rfl)

/-- The skip matrix: row (h·14 + w)·32 + n, column cm, is skip[n, cm, h, w]. -/
theorem skip_at (c : Dev nD) (h w : Fin 14) (n : Fin 32) (cm : Fin 1024) (r : Fin 6272)
    (hr : r.val = (h.val * 14 + w.val) * 32 + n.val) :
    (V m c main_v3 : S6272x1024.Idx → EReal) (ix2 r cm)
      = aSkip m c (ix4 n cm h w) := by
  have e : (V m c main_v3 : S6272x1024.Idx → EReal)
      = shapeCast S6272x1024 (transpose S14x14x32x1024 [2, 3, 0, 1] (m ((c : Thread nD τ).loc main_arg1))
          transposes_S32x1024x14x14_S14x14x32x1024_2_3_0_1) shapeCasts_S14x14x32x1024_S6272x1024 := by
    show StableHlo.after hostOps0 (fun b => m (c, b)) (Proc.devRef .tc main_v3) = _
    after_results; rfl
  rw [e]
  refine (shapeCast_apply _ _ (ix2 r cm) (ix4 h w n cm) ?_).trans ?_
  · rw [Shape.rowMajor_val_four, Shape.rowMajor_val_two]
    show ((h.val * 14 + w.val) * 32 + n.val) * 1024 + cm.val = r.val * 1024 + cm.val
    rw [hr]
  · exact transpose_apply _ _ _ (ix4 h w n cm) (ix4 n cm h w) (fun b => by
      match b with
      | ⟨0, _⟩ => rfl
      | ⟨1, _⟩ => rfl
      | ⟨2, _⟩ => rfl
      | ⟨3, _⟩ => rfl)

/-- The folded scale vector γ · rsqrt (var + ε), read at a channel. -/
theorem scale_at (c : Dev nD) (cm : Fin 1024) :
    (mulf (m ((c : Thread nD τ).loc main_arg3) : FVec Ideal S1024 .f32)
        (Host.rsqrt (addf (m ((c : Thread nD τ).loc main_arg6) : FVec Ideal S1024 .f32)
          (broadcastInDim S1024 ![] bcast_S_S1024 (constant (F := Ideal) S_ .f32 0x3727C5AC#32))))) (ix1 cm)
      = scaleMul (aGamma m c) (aVar m c) cm := rfl

/-- The first weight matrix with the scale folded into its rows: at (cm, ci) it is w1[cm, ci] · scale cm. -/
theorem w1_at (c : Dev nD) (cm : Fin 1024) (ci : Fin 256) :
    (V m c main_v15 : S1024x256.Idx → EReal) (ix2 cm ci)
      = aW1 m c (ix4 cm ci 0 0) * scaleMul (aGamma m c) (aVar m c) cm := by
  have e : (V m c main_v15 : S1024x256.Idx → EReal)
      = truncf (F := Ideal) .bf16 (mulf (shapeCast S1024x256 (m ((c : Thread nD τ).loc main_arg2) : FVec Ideal S1024x256x1x1 .f32) shapeCasts_S1024x256x1x1_S1024x256)
          (broadcastInDim S1024x256 ![0, 1] bcast_S1024x1_S1024x256_0_1
            (broadcastInDim S1024x1 ![0] bcast_S1024_S1024x1_0
              (mulf (m ((c : Thread nD τ).loc main_arg3) : FVec Ideal S1024 .f32)
                (Host.rsqrt (addf (m ((c : Thread nD τ).loc main_arg6) : FVec Ideal S1024 .f32)
                  (broadcastInDim S1024 ![] bcast_S_S1024 (constant (F := Ideal) S_ .f32 0x3727C5AC#32))))))))
          bitsLt_bf16_f32 := by
    show StableHlo.after hostOps0 (fun b => m (c, b)) (Proc.devRef .tc main_v15) = _
    after_results; rfl
  rw [e, truncf_apply, mulf_apply, ← scale_at m c cm]
  congr 1
  · refine shapeCast_apply _ _ (ix2 cm ci) (ix4 cm ci 0 0) ?_
    rw [Shape.rowMajor_val_four, Shape.rowMajor_val_two]
    show ((cm.val * 256 + ci.val) * 1 + 0) * 1 + 0 = cm.val * 256 + ci.val
    omega
  · refine (broadcastInDim_apply _ _ _ (ix2 cm ci) (ix2 cm (0 : Fin 1)) (fun a => ?_)).trans ?_
    · match a with
      | ⟨0, _⟩ => rfl
      | ⟨1, _⟩ => rfl
    · refine broadcastInDim_apply _ _ _ (ix2 cm (0 : Fin 1)) (ix1 cm) (fun a => ?_)
      match a with
      | ⟨0, _⟩ => rfl

/-- The bias row: at channel cm it is β cm − mean cm · scale cm. -/
theorem bias_at (c : Dev nD) (z : Fin 1) (cm : Fin 1024) :
    (V m c main_v10 : S1x1024.Idx → EReal) (ix2 z cm)
      = aBeta m c (ix1 cm) - aMean m c (ix1 cm) * scaleMul (aGamma m c) (aVar m c) cm := by
  have e : (V m c main_v10 : S1x1024.Idx → EReal)
      = broadcastInDim S1x1024 ![1] bcast_S1024_S1x1024_1
          (subf (m ((c : Thread nD τ).loc main_arg4) : FVec Ideal S1024 .f32)
            (mulf (m ((c : Thread nD τ).loc main_arg5) : FVec Ideal S1024 .f32)
              (mulf (m ((c : Thread nD τ).loc main_arg3) : FVec Ideal S1024 .f32)
                (Host.rsqrt (addf (m ((c : Thread nD τ).loc main_arg6) : FVec Ideal S1024 .f32)
                  (broadcastInDim S1024 ![] bcast_S_S1024 (constant (F := Ideal) S_ .f32 0x3727C5AC#32))))))) := by
    show StableHlo.after hostOps0 (fun b => m (c, b)) (Proc.devRef .tc main_v10) = _
    after_results
  rw [e]
  refine (broadcastInDim_apply _ _ _ (ix2 z cm) (ix1 cm) (fun a => ?_)).trans ?_
  · match a with
    | ⟨0, _⟩ => rfl
  · rfl

/-- The second weight matrix: at (co, cm) it is w2[co, cm]. -/
theorem w2_at (c : Dev nD) (co : Fin 256) (cm : Fin 1024) :
    (V m c main_v17 : S256x1024.Idx → EReal) (ix2 co cm)
      = aW2 m c (ix4 co cm 0 0) := by
  have e : (V m c main_v17 : S256x1024.Idx → EReal)
      = truncf (F := Ideal) .bf16 (shapeCast S256x1024 (m ((c : Thread nD τ).loc main_arg7) : FVec Ideal S256x1024x1x1 .f32)
          shapeCasts_S256x1024x1x1_S256x1024) bitsLt_bf16_f32 := by
    show StableHlo.after hostOps0 (fun b => m (c, b)) (Proc.devRef .tc main_v17) = _
    after_results; rfl
  rw [e, truncf_apply]
  refine shapeCast_apply _ _ (ix2 co cm) (ix4 co cm 0 0) ?_
  rw [Shape.rowMajor_val_four, Shape.rowMajor_val_two]
  show ((co.val * 1024 + cm.val) * 1 + 0) * 1 + 0 = co.val * 1024 + cm.val
  omega

end Cert.KernelIdeal.KValue

end
-- ==== Proof.KBody.lean ====
/-
  The fused body on one block of 784 rows, read at an entry.

  With X the block's activations (784 × 256), W1 the scaled first weights (1024 × 256), b the bias row, S the block's
  skip rows (784 × 1024) and W2 the second weights (256 × 1024), the entry (p, q) of what the body stores is

      Σ_cm  max (Σ_ci X[p,ci] · W1[cm,ci] + b[cm] + S[p,cm]) 0 · W2[q,cm] :

  two products that each contract the second axis of both operands, into accumulators that start at zero.
-/
import proofs.«148798_g2000004446570603_pallasbulk_806_6_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KValue

open Idealize.ShloMosaic Idealize.ShloMosaic.ValueIdx
open Cert.KernelIdeal Cert.KernelIdeal.Gen
open scoped BigOperators

/-- The first product's dimension numbers (activations against scaled weights) and the second's. -/
abbrev D1 : DotDims S784x256 S1024x256 S784x1024 := dot_S784x256_S1024x256_S784x1024_1_1_0_0_n_n
abbrev D2 : DotDims S784x1024 S256x1024 S784x256 := dot_S784x1024_S256x1024_S784x256_1_1_0_0_n_n

theorem lhs1_0 (j : S784x1024.Idx) (k : D1.contr.Idx) : (D1.lhsIdx j k 0 : ℕ) = j 0 := by
  simp [DotDims.lhsIdx, D1, dot_S784x256_S1024x256_S784x1024_1_1_0_0_n_n]; rfl
theorem lhs1_1 (j : S784x1024.Idx) (k : D1.contr.Idx) : (D1.lhsIdx j k 1 : ℕ) = k ⟨0, by decide⟩ := by
  simp [DotDims.lhsIdx, D1, dot_S784x256_S1024x256_S784x1024_1_1_0_0_n_n]; rfl
theorem rhs1_0 (j : S784x1024.Idx) (k : D1.contr.Idx) : (D1.rhsIdx j k 0 : ℕ) = j 1 := by
  simp [DotDims.rhsIdx, D1, dot_S784x256_S1024x256_S784x1024_1_1_0_0_n_n]; rfl
theorem rhs1_1 (j : S784x1024.Idx) (k : D1.contr.Idx) : (D1.rhsIdx j k 1 : ℕ) = k ⟨0, by decide⟩ := by
  simp [DotDims.rhsIdx, D1, dot_S784x256_S1024x256_S784x1024_1_1_0_0_n_n]; rfl

theorem lhs2_0 (j : S784x256.Idx) (k : D2.contr.Idx) : (D2.lhsIdx j k 0 : ℕ) = j 0 := by
  simp [DotDims.lhsIdx, D2, dot_S784x1024_S256x1024_S784x256_1_1_0_0_n_n]; rfl
theorem lhs2_1 (j : S784x256.Idx) (k : D2.contr.Idx) : (D2.lhsIdx j k 1 : ℕ) = k ⟨0, by decide⟩ := by
  simp [DotDims.lhsIdx, D2, dot_S784x1024_S256x1024_S784x256_1_1_0_0_n_n]; rfl
theorem rhs2_0 (j : S784x256.Idx) (k : D2.contr.Idx) : (D2.rhsIdx j k 0 : ℕ) = j 1 := by
  simp [DotDims.rhsIdx, D2, dot_S784x1024_S256x1024_S784x256_1_1_0_0_n_n]; rfl
theorem rhs2_1 (j : S784x256.Idx) (k : D2.contr.Idx) : (D2.rhsIdx j k 1 : ℕ) = k ⟨0, by decide⟩ := by
  simp [DotDims.rhsIdx, D2, dot_S784x1024_S256x1024_S784x256_1_1_0_0_n_n]; rfl

/-- The contracted channel of each product as a plain number. -/
abbrev e1 : D1.contr.Idx ≃ Fin 256 := contrEquiv1 D1 256 rfl rfl
abbrev e2 : D2.contr.Idx ≃ Fin 1024 := contrEquiv1 D2 1024 rfl rfl

theorem lhs1_eq (p : Fin 784) (cm : Fin 1024) (ci : Fin 256) : D1.lhsIdx (ix2 p cm) (e1.symm ci) = ix2 p ci := by
  funext a; apply Fin.ext
  match a with
  | ⟨0, _⟩ => exact lhs1_0 _ _
  | ⟨1, _⟩ => exact (lhs1_1 _ _).trans (contrEquiv1_symm_val D1 256 rfl rfl ci)
theorem rhs1_eq (p : Fin 784) (cm : Fin 1024) (ci : Fin 256) : D1.rhsIdx (ix2 p cm) (e1.symm ci) = ix2 cm ci := by
  funext a; apply Fin.ext
  match a with
  | ⟨0, _⟩ => exact rhs1_0 _ _
  | ⟨1, _⟩ => exact (rhs1_1 _ _).trans (contrEquiv1_symm_val D1 256 rfl rfl ci)
theorem lhs2_eq (p : Fin 784) (q : Fin 256) (cm : Fin 1024) : D2.lhsIdx (ix2 p q) (e2.symm cm) = ix2 p cm := by
  funext a; apply Fin.ext
  match a with
  | ⟨0, _⟩ => exact lhs2_0 _ _
  | ⟨1, _⟩ => exact (lhs2_1 _ _).trans (contrEquiv1_symm_val D2 1024 rfl rfl cm)
theorem rhs2_eq (p : Fin 784) (q : Fin 256) (cm : Fin 1024) : D2.rhsIdx (ix2 p q) (e2.symm cm) = ix2 q cm := by
  funext a; apply Fin.ext
  match a with
  | ⟨0, _⟩ => exact rhs2_0 _ _
  | ⟨1, _⟩ => exact (rhs2_1 _ _).trans (contrEquiv1_symm_val D2 1024 rfl rfl cm)

/-- The body's hidden value at (p, cm): the first product plus the bias row plus the skip, clipped below at zero. -/
theorem hidden_at (X : S784x256.Idx → EReal) (W1 : S1024x256.Idx → EReal) (b : S1x1024.Idx → EReal)
    (S : S784x1024.Idx → EReal) (p : Fin 784) (cm : Fin 1024) :
    (maximumf (F := Ideal) (φ := .f32) (addf (addf (FloatOps.matmul (F := Ideal) (φ₁ := .bf16) (φ₂ := .bf16) D1 none X W1 (constant (F := Ideal) S784x1024 .f32 0x00000000#32))
        (broadcastTo S784x1024 b broadcasts_S1x1024_S784x1024)) S)
        (broadcast S784x1024 (Scalar.ofBits (F := Ideal) .f32 0x00000000#32))) (ix2 p cm)
      = max ((∑ ci : Fin 256, X (ix2 p ci) * W1 (ix2 cm ci)) + b (ix2 0 cm) + S (ix2 p cm)) 0 := by
  rw [maximumf_apply, addf_apply, addf_apply, Ideal.matmul_constant_zero_apply, broadcast_apply]
  have hsum : (∑ k : D1.contr.Idx, X (D1.lhsIdx (ix2 p cm) k) * W1 (D1.rhsIdx (ix2 p cm) k))
      = ∑ ci : Fin 256, X (ix2 p ci) * W1 (ix2 cm ci) := by
    rw [← Equiv.sum_comp e1.symm]
    exact Finset.sum_congr rfl (fun ci _ => by rw [lhs1_eq, rhs1_eq])
  have hb : broadcastTo S784x1024 b broadcasts_S1x1024_S784x1024 (ix2 p cm) = b (ix2 0 cm) :=
    broadcastTo_apply b broadcasts_S1x1024_S784x1024 (ix2 p cm) (ix2 0 cm) (fun a => by
      match a with
      | ⟨0, _⟩ => rfl
      | ⟨1, _⟩ => rfl)
  have hz : (FloatOps.ofBits (F := Ideal) .f32 0x00000000#32 : EReal) = 0 := Ideal.ofBits_zero_f32
  rw [hsum, hb, hz]

/-- The body's stored entry (p, q): the hidden row p against row q of the second weights. -/
theorem pay_at (X : S784x256.Idx → EReal) (W1 : S1024x256.Idx → EReal) (b : S1x1024.Idx → EReal)
    (S : S784x1024.Idx → EReal) (W2 : S256x1024.Idx → EReal) (p : Fin 784) (q : Fin 256) :
    k0_pay1 (F := Ideal) X W1 b S W2 (ix2 p q)
      = ∑ cm : Fin 1024, max ((∑ ci : Fin 256, X (ix2 p ci) * W1 (ix2 cm ci)) + b (ix2 0 cm) + S (ix2 p cm)) 0
          * W2 (ix2 q cm) := by
  unfold k0_pay1
  simp only [shapeCast_self]
  show FloatOps.matmul (F := Ideal) D2 none _ W2 (constant (F := Ideal) S784x256 .f32 0x00000000#32) (ix2 p q) = _
  rw [Ideal.matmul_constant_zero_apply, ← Equiv.sum_comp e2.symm]
  refine Finset.sum_congr rfl (fun cm _ => ?_)
  rw [lhs2_eq, rhs2_eq, truncf_apply]
  exact congrArg (· * W2 (ix2 q cm)) (hidden_at X W1 b S p cm)

end Cert.KernelIdeal.KValue

end
-- ==== Proof.KBlocks.lean ====
/-
  From blocks to the whole result matrix.

  The grid has eight points; point t works on rows 784·t … 784·t + 783 of the 6272-row matrices and on the whole of the
  two weight matrices and the bias row, and writes back rows 784·t … of the result.  The eight row blocks tile the
  result, so after the run the result matrix is, entry by entry,

      out[r, co] = Σ_cm max (Σ_ci X[r,ci] · W1[cm,ci] + b[cm] + S[r,cm]) 0 · W2[co,cm]

  over the five matrices as the region finds them.
-/
import proofs.«148798_g2000004446570603_pallasbulk_806_6_alg».proof.Proof.Gen.KernelIdeal.Frame
import proofs.«148798_g2000004446570603_pallasbulk_806_6_alg».proof.Proof.KHost
import proofs.«148798_g2000004446570603_pallasbulk_806_6_alg».proof.Proof.KBody

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Bottleneck
open scoped BigOperators

variable (m : (ℓ : Loc nD τ sig) → Buf (Elt Ideal) ℓ)

/-- The five matrices the region is launched on, on core c, as functions into the extended reals. -/
abbrev vX (c : Dev nD) : S6272x256.Idx → EReal := V m c main_v1
abbrev vS (c : Dev nD) : S6272x1024.Idx → EReal := V m c main_v3
abbrev vW1 (c : Dev nD) : S1024x256.Idx → EReal := V m c main_v15
abbrev vB (c : Dev nD) : S1x1024.Idx → EReal := V m c main_v10
abbrev vW2 (c : Dev nD) : S256x1024.Idx → EReal := V m c main_v17

/-- The result matrix, entry by entry. -/
def outMat (c : Dev nD) : S6272x256.Idx → EReal := fun i =>
  ∑ cm : Fin 1024, max ((∑ ci : Fin 256, vX m c (ix2 (i 0) ci) * vW1 m c (ix2 cm ci)) + vB m c (ix2 0 cm)
      + vS m c (ix2 (i 0) cm)) 0 * vW2 m c (ix2 (i 1) cm)

theorem zero_offsets : (![0, 0] : Fin 2 → Nat) = fun _ => 0 := funext fun a => by fin_cases a <;> rfl

/-- The block index maps over the grid: the activation and skip blocks move with the result's row block, on column
    block zero; the weights and the bias sit at block (0, 0); the result's row block is one of 0 … 7. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 7 :=
  (by decide +kernel : ∀ t : Fin grid0.N, _)

/-- Every row block of the result is some point's. -/
theorem index_onto : ∀ q0 : Fin 8, ∃ t : Fin cfg0.N, win0_5.index t = ![q0.val, 0] :=
  (by decide +kernel : ∀ q0 : Fin 8, ∃ t : Fin grid0.N, win0_5.index t = ![q0.val, 0])

/-- What point t writes back is block t of the result matrix. -/
theorem flushed_eq (c : Dev nD) (t : Fin cfg0.N) :
    (dats m 0 c).flushed 5 t = ((cfg0.win 5).blk t).view.read (Elt Ideal) (outMat m c) := by
  show (cfg0.win 5).cut (grid0.coords t) ((dats m 0 c).after 5 t) = _
  rw [after0_5]
  unfold out0_5
  rw [View.canon_unit_zero zero_offsets]
  simp only [View.ld_unit_zero (S := S784x256) zero_offsets, View.ld_unit_zero (S := S1024x256) zero_offsets,
    View.ld_unit_zero (S := S1x1024) zero_offsets, View.ld_unit_zero (S := S784x1024) zero_offsets,
    View.ld_unit_zero (S := S256x1024) zero_offsets]
  obtain ⟨f00, f01, f10, f11, f20, f21, f30, f31, f40, f41, f51, f50⟩ := index_facts t
  funext j
  obtain ⟨p, q, rfl⟩ : ∃ (p : Fin 784) (q : Fin 256), j = ix2 p q := ⟨j 0, j 1, eq_ix2 j⟩
  show k0_pay1 (F := Ideal) (iblk m c 0 t) (iblk m c 2 t) (iblk m c 3 t) (iblk m c 1 t) (iblk m c 4 t) (ix2 p q)
      = outMat m c (((cfg0.win 5).blk t).view.emb (ix2 p q))
  refine (pay_at (iblk m c 0 t) (iblk m c 2 t) (iblk m c 3 t) (iblk m c 1 t) (iblk m c 4 t) p q).trans ?_
  -- the row of the result this entry lands on
  have hrow : ((((cfg0.win 5).blk t).view.emb (ix2 p q)) 0).val = win0_5.index t (0 : Fin 2) * 784 + 1 * p.val := rfl
  have hcol : ((((cfg0.win 5).blk t).view.emb (ix2 p q)) 1).val = win0_5.index t (1 : Fin 2) * 256 + 1 * q.val := rfl
  have h0 : ∀ ci : Fin 256, iblk m c 0 t (ix2 p ci) = vX m c (ix2 ((((cfg0.win 5).blk t).view.emb (ix2 p q)) 0) ci) := fun ci => by
    show V m c main_v1 (((cfg0.win 0).blk t).view.emb (ix2 p ci)) = V m c main_v1 _
    refine congrArg _ (funext fun a => Fin.ext ?_)
    match a with
    | ⟨0, _⟩ => show win0_0.index t (0 : Fin 2) * 784 + 1 * p.val = _; rw [f00]; exact hrow.symm
    | ⟨1, _⟩ => show win0_0.index t (1 : Fin 2) * 256 + 1 * ci.val = ci.val; omega
  have h1 : ∀ cm : Fin 1024, iblk m c 1 t (ix2 p cm) = vS m c (ix2 ((((cfg0.win 5).blk t).view.emb (ix2 p q)) 0) cm) := fun cm => by
    show V m c main_v3 (((cfg0.win 1).blk t).view.emb (ix2 p cm)) = V m c main_v3 _
    refine congrArg _ (funext fun a => Fin.ext ?_)
    match a with
    | ⟨0, _⟩ => show win0_1.index t (0 : Fin 2) * 784 + 1 * p.val = _; rw [f10]; exact hrow.symm
    | ⟨1, _⟩ => show win0_1.index t (1 : Fin 2) * 1024 + 1 * cm.val = cm.val; omega
  have h2 : ∀ (cm : Fin 1024) (ci : Fin 256), iblk m c 2 t (ix2 cm ci) = vW1 m c (ix2 cm ci) := fun cm ci => by
    show V m c main_v15 (((cfg0.win 2).blk t).view.emb (ix2 cm ci)) = V m c main_v15 _
    refine congrArg _ (funext fun a => Fin.ext ?_)
    match a with
    | ⟨0, _⟩ => show win0_2.index t (0 : Fin 2) * 1024 + 1 * cm.val = cm.val; omega
    | ⟨1, _⟩ => show win0_2.index t (1 : Fin 2) * 256 + 1 * ci.val = ci.val; omega
  have h3 : ∀ cm : Fin 1024, iblk m c 3 t (ix2 0 cm) = vB m c (ix2 0 cm) := fun cm => by
    show V m c main_v10 (((cfg0.win 3).blk t).view.emb (ix2 0 cm)) = V m c main_v10 _
    refine congrArg _ (funext fun a => Fin.ext ?_)
    match a with
    | ⟨0, _⟩ => show win0_3.index t (0 : Fin 2) * 1 + 1 * 0 = 0; omega
    | ⟨1, _⟩ => show win0_3.index t (1 : Fin 2) * 1024 + 1 * cm.val = cm.val; omega
  have h4 : ∀ cm : Fin 1024, iblk m c 4 t (ix2 q cm) = vW2 m c (ix2 ((((cfg0.win 5).blk t).view.emb (ix2 p q)) 1) cm) := fun cm => by
    show V m c main_v17 (((cfg0.win 4).blk t).view.emb (ix2 q cm)) = V m c main_v17 _
    refine congrArg _ (funext fun a => Fin.ext ?_)
    match a with
    | ⟨0, _⟩ => show win0_4.index t (0 : Fin 2) * 256 + 1 * q.val = _; rw [hcol]; omega
    | ⟨1, _⟩ => show win0_4.index t (1 : Fin 2) * 1024 + 1 * cm.val = cm.val; omega
  unfold outMat
  refine Finset.sum_congr rfl (fun cm _ => ?_)
  rw [Finset.sum_congr rfl (fun ci _ => by rw [h0 ci, h2 cm ci]), h3 cm, h1 cm, h4 cm]

/-- An index of the result matrix is in point t's block iff each coordinate is in the block's range on its axis. -/
theorem mem_blk (t : Fin cfg0.N) (i : S6272x256.Idx) :
    i ∈ ((cfg0.win 5).blk t).view.set ↔ ∀ a : Fin 2, win0_5.index t a * S784x256.size a ≤ (i a).val
      ∧ (i a).val < win0_5.index t a * S784x256.size a + S784x256.size a := by
  show i ∈ ((View.whole main_v18).slice (win0_5.rect t)).set ↔ _
  rw [View.set_slice_whole, Rect.mem_set_unit]
  exact Iff.rfl

/-- Every entry of the result is in the block of the point whose row block is row / 784. -/
theorem cover (i : S6272x256.Idx) :
    ∃ t : Fin cfg0.N, (cfg0.win 5).flush t = true ∧ i ∈ ((cfg0.win 5).blk t).view.set := by
  have hi0 : (i 0).val < 6272 := (i 0).isLt
  have hi1 : (i 1).val < 256 := (i 1).isLt
  obtain ⟨t, ht⟩ := index_onto ⟨(i 0).val / 784, by omega⟩
  have q0 : win0_5.index t (0 : Fin 2) = (i 0).val / 784 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 784 ≤ (i 0).val ∧ (i 0).val < win0_5.index t (0 : Fin 2) * 784 + 784; omega
  | ⟨1, _⟩ => show win0_5.index t (1 : Fin 2) * 256 ≤ (i 1).val ∧ (i 1).val < win0_5.index t (1 : Fin 2) * 256 + 256; omega

/-- The result matrix after the run. -/
theorem final (c : Dev nD) : (dats m 0 c).arrAt 5 cfg0.N = outMat m c :=
  (dats m 0 c).arrAt_eq_of_cover 5 (outMat m c) (fun t _ => flushed_eq m c t) cover

end Cert.KernelIdeal.KValue

end
-- ==== Proof.KRun.lean ====
/-
  The first program's run, read: its result is the bottleneck block G of its arguments, with the folded scale in the
  product form γ · rsqrt (var + ε).

  After the region the result matrix (rows (h·14 + w)·32 + n, columns co) is reshaped to (h, w, n, co) and transposed
  back to (n, co, h, w); so the result at (n, co, h, w) is the matrix entry at row (h·14 + w)·32 + n, column co, which
  by the five reads of the launched matrices is G at (n, co, h, w).
-/
import proofs.«148798_g2000004446570603_pallasbulk_806_6_alg».proof.Proof.Gen.KernelIdeal.Frame
import proofs.«148798_g2000004446570603_pallasbulk_806_6_alg».proof.Proof.KHost
import proofs.«148798_g2000004446570603_pallasbulk_806_6_alg».proof.Proof.KBlocks
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.Bottleneck
open scoped BigOperators

variable (m : (ℓ : Loc nD τ sig) → Buf (Elt Ideal) ℓ) (ρ : Dev nD → PrngReg)

/-- The block's result as this program computes it, on core c. -/
abbrev result (c : Dev nD) : SX.Idx → EReal :=
  G (aX m c) (aSkip m c) (aW1 m c) (aW2 m c) (aBeta m c) (aMean m c) (scaleMul (aGamma m c) (aVar m c))

/-- The result matrix at row (h·14 + w)·32 + n, column co, is G at (n, co, h, w). -/
theorem outMat_at (c : Dev nD) (h w : Fin 14) (n : Fin 32) (co : Fin 256) (r : Fin 6272)
    (hr : r.val = (h.val * 14 + w.val) * 32 + n.val) :
    outMat m c (ix2 r co) = result m c (ix4 n co h w) := by
  have hx : ∀ ci : Fin 256, vX m c (ix2 r ci) = aX m c (ix4 n ci h w) := fun ci => x_at m c h w n ci r hr
  have hs : ∀ cm : Fin 1024, vS m c (ix2 r cm) = aSkip m c (ix4 n cm h w) := fun cm => skip_at m c h w n cm r hr
  have hw1 : ∀ (cm : Fin 1024) (ci : Fin 256), vW1 m c (ix2 cm ci)
      = aW1 m c (ix4 cm ci 0 0) * scaleMul (aGamma m c) (aVar m c) cm := fun cm ci => w1_at m c cm ci
  have hb : ∀ cm : Fin 1024, vB m c (ix2 0 cm)
      = aBeta m c (ix1 cm) - aMean m c (ix1 cm) * scaleMul (aGamma m c) (aVar m c) cm := fun cm => bias_at m c 0 cm
  have hw2 : ∀ cm : Fin 1024, vW2 m c (ix2 co cm) = aW2 m c (ix4 co cm 0 0) := fun cm => w2_at m c co cm
  show (∑ cm : Fin 1024, max ((∑ ci : Fin 256, vX m c (ix2 r ci) * vW1 m c (ix2 cm ci)) + vB m c (ix2 0 cm)
        + vS m c (ix2 r cm)) 0 * vW2 m c (ix2 co cm))
      = ∑ cm : Fin 1024, max ((∑ ci : Fin 256, aX m c (ix4 n ci h w) * (aW1 m c (ix4 cm ci 0 0) * scaleMul (aGamma m c) (aVar m c) cm))
        + (aBeta m c (ix1 cm) - aMean m c (ix1 cm) * scaleMul (aGamma m c) (aVar m c) cm) + aSkip m c (ix4 n cm h w)) 0
          * aW2 m c (ix4 co cm 0 0)
  refine Finset.sum_congr rfl (fun cm _ => ?_)
  rw [Finset.sum_congr rfl (fun ci _ => by rw [hx ci, hw1 cm ci]), hb cm, hs cm, hw2 cm]

/-- What the lines after the region leave in the program's result. -/
theorem tail_eq (c : Dev nD) :
    (Pipeline.afterTail₀ cfgs (dats m) 0 (V0 m) [hostOps1] c main_v20 : SX.Idx → EReal) = result m c := by
  have hW : Pipeline.withArrays (cfgs 0).spec c (V0 m c) (fun w => (dats m 0 c).arrAt w (cfgs 0).N)
      (Proc.devRef .tc main_v18) = outMat m c :=
    (Pipeline.withArrays_arr spec0 launch0.win.arr_inj c _ _ 5).trans (final m c)
  have e : (Pipeline.afterTail₀ cfgs (dats m) 0 (V0 m) [hostOps1] c main_v20 : SX.Idx → EReal)
      = transpose S32x256x14x14 [2, 3, 0, 1] (shapeCast S14x14x32x256 (outMat m c) shapeCasts_S6272x256_S14x14x32x256)
          transposes_S14x14x32x256_S32x256x14x14_2_3_0_1 := by
    unfold Pipeline.afterTail₀
    show StableHlo.after hostOps1 _ (Proc.devRef .tc main_v20) = _
    after_results
    rw [hW]
    rfl
  rw [e]
  funext i
  obtain ⟨n, co, h, w, rfl⟩ : ∃ (n : Fin 32) (co : Fin 256) (h w : Fin 14), i = ix4 n co h w :=
    ⟨i 0, i 1, i 2, i 3, eq_ix4 i⟩
  refine (transpose_apply _ _ _ (ix4 n co h w) (ix4 h w n co) (fun b => by
    match b with
    | ⟨0, _⟩ => rfl
    | ⟨1, _⟩ => rfl
    | ⟨2, _⟩ => rfl
    | ⟨3, _⟩ => rfl)).trans ?_
  have hlt : (h.val * 14 + w.val) * 32 + n.val < 6272 := by
    have := h.isLt; have := w.isLt; have := n.isLt; omega
  refine (shapeCast_apply _ _ (ix4 h w n co) (ix2 (⟨(h.val * 14 + w.val) * 32 + n.val, hlt⟩ : Fin 6272) co) ?_).trans ?_
  · rw [Shape.rowMajor_val_two, Shape.rowMajor_val_four]
    rfl
  · exact outMat_at m c h w n co _ rfl

/-- THE RUN: every weakly fair execution terminates with the result at G of the arguments (product-form scale) and the
    eight arguments unchanged. -/
theorem run : θ_run (defs (F := Ideal)) (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.RefHost.lean ====
/-
  The five arrays the reference's kernel region reads, as the host lines before it leave them, read at an index.

  The input and the skip are flattened over their 14 × 14 pixels and padded with zeros from 196 to 256 columns: column
  h·14 + w of row (n, channel) is the argument at (n, channel, h, w).  The first weights are flattened to a matrix and each
  row cm is multiplied by the folded scale γ / sqrt (var + ε) of that row; the bias column is β − mean · scale; the
  second weights are flattened to a matrix.  The changes of float format are the identity on extended reals.
-/
import proofs.«148798_g2000004446570603_pallasbulk_806_6_alg».proof.Proof.Gen.ReferenceIdeal.Frame
import proofs.«148798_g2000004446570603_pallasbulk_806_6_alg».proof.Proof.Spec
import proofs.«148798_g2000004446570603_pallasbulk_806_6_alg».proof.Proof.LibLayout
import Idealize.ShloMosaic.Lib.Pipeline.Value
import Idealize.ShloMosaic.Lib.ValueIdx
import Idealize.ShloMosaic.Lib.KernelVsHost
import Idealize.ShloMosaic.Lib.IdealHost
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-! ## The host lines' terms -/

/-- A rank-4 array over 14 × 14 pixels flattened to 196 columns and padded with the converted integer zero to 256. -/
def padded {a b : ℕ} (x : (⟨4, ![a, b, 14, 14]⟩ : Shape).Idx → EReal)
    (hc : (⟨4, ![a, b, 14, 14]⟩ : Shape).ShapeCasts ⟨3, ![a, b, 196]⟩)
    (hp : (⟨3, ![a, b, 196]⟩ : Shape).Pads (![0, 0, 0] : Fin 3 → Nat) ![0, 0, 60] ![0, 0, 0] ⟨3, ![a, b, 256]⟩) :
    (⟨3, ![a, b, 256]⟩ : Shape).Idx → EReal :=
  pad ⟨3, ![a, b, 256]⟩ ![0, 0, 0] ![0, 0, 60] ![0, 0, 0] (shapeCast ⟨3, ![a, b, 196]⟩ x hc)
    (sitofp (F := Ideal) .f32 (constantI S_ 32 0#32)) hp h_S_

/-- Column h·14 + w of the padded array is the pixel (h, w). -/
theorem padded_apply {a b : ℕ} (x : (⟨4, ![a, b, 14, 14]⟩ : Shape).Idx → EReal)
    (hc : (⟨4, ![a, b, 14, 14]⟩ : Shape).ShapeCasts ⟨3, ![a, b, 196]⟩)
    (hp : (⟨3, ![a, b, 196]⟩ : Shape).Pads (![0, 0, 0] : Fin 3 → Nat) ![0, 0, 60] ![0, 0, 0] ⟨3, ![a, b, 256]⟩)
    (n : Fin a) (ch : Fin b) (h w : Fin 14) (t : Fin 256) (ht : t.val = h.val * 14 + w.val) :
    padded x hc hp (ix3 n ch t) = x (ix4 n ch h w) := by
  have h1 := h.isLt
  have h2 := w.isLt
  unfold padded
  refine (pad_apply_of_inside _ _ _ _ _ hp h_S_ (ix3 n ch t) (ix3 n ch (⟨h.val * 14 + w.val, by omega⟩ : Fin 196)) ?_).trans ?_
  · intro ax
    match ax with
    | ⟨0, _⟩ => show n.val = 0 + n.val * (0 + 1); omega
    | ⟨1, _⟩ => show ch.val = 0 + ch.val * (0 + 1); omega
    | ⟨2, _⟩ => show t.val = 0 + (h.val * 14 + w.val) * (0 + 1); omega
  · refine shapeCast_apply x hc _ (ix4 n ch h w) ?_
    rw [Shape.rowMajor_val_four, Shape.rowMajor_val_three]
    show ((n.val * b + ch.val) * 14 + h.val) * 14 + w.val = (n.val * b + ch.val) * 196 + (h.val * 14 + w.val)
    generalize n.val * b + ch.val = r
    omega

/-- The folded scale as the host lines compute it: γ divided by the root of the variance plus the broadcast ε. -/
def scaleVec (γ var : FVec Ideal S1024 .f32) : FVec Ideal S1024 .f32 :=
  Host.divf γ (Host.sqrt (addf var (broadcastInDim S1024 ![] bcast_S_S1024 (constant (F := Ideal) S_ .f32 0x3727C5AC#32))))

/-- Entry cm of it is the specification's scale of row cm. -/
theorem scaleVec_apply (γ var : FVec Ideal S1024 .f32) (cm : Fin 1024) :
    scaleVec γ var (ix1 cm) = Cert.Bottleneck.scaleDiv γ var cm := by
  unfold scaleVec Cert.Bottleneck.scaleDiv
  show Ideal.div (γ (ix1 cm)) (Ideal.sqrt (var (ix1 cm) + broadcastInDim S1024 ![] bcast_S_S1024 (constant (F := Ideal) S_ .f32 0x3727C5AC#32) (ix1 cm))) = _
  rw [broadcastInDim_scalar_apply]
  rfl

/-- The scaled first weights as a matrix: the flattened weights times the scale broadcast along each row. -/
def w1Scaled (w1 : FVec Ideal S1024x256x1x1 .f32) (γ var : FVec Ideal S1024 .f32) : FVec Ideal S1024x256 .bf16 :=
  truncf .bf16 (mulf (shapeCast S1024x256 w1 shapeCasts_S1024x256x1x1_S1024x256)
    (broadcastInDim S1024x256 ![0, 1] bcast_S1024x1_S1024x256_0_1
      (broadcastInDim S1024x1 ![0] bcast_S1024_S1024x1_0 (scaleVec γ var)))) bitsLt_bf16_f32

/-- Entry (cm, ci) of it is the weight at (cm, ci, 0, 0) times the scale of row cm. -/
theorem w1Scaled_apply (w1 : FVec Ideal S1024x256x1x1 .f32) (γ var : FVec Ideal S1024 .f32) (cm : Fin 1024) (ci : Fin 256) :
    w1Scaled w1 γ var (ix2 cm ci) = w1 (ix4 cm ci 0 0) * Cert.Bottleneck.scaleDiv γ var cm := by
  unfold w1Scaled
  show shapeCast S1024x256 w1 shapeCasts_S1024x256x1x1_S1024x256 (ix2 cm ci)
      * broadcastInDim S1024x256 ![0, 1] bcast_S1024x1_S1024x256_0_1
          (broadcastInDim S1024x1 ![0] bcast_S1024_S1024x1_0 (scaleVec γ var)) (ix2 cm ci) = _
  rw [shapeCast_apply w1 shapeCasts_S1024x256x1x1_S1024x256 (ix2 cm ci) (ix4 cm ci 0 0) (by
      rw [Shape.rowMajor_val_four, Shape.rowMajor_val_two]
      show ((cm.val * 256 + ci.val) * 1 + 0) * 1 + 0 = cm.val * 256 + ci.val
      omega),
    broadcastInDim_apply ![0, 1] bcast_S1024x1_S1024x256_0_1 _ (ix2 cm ci) (ix2 cm (0 : Fin 1)) (fun ax => by
      match ax with
      | ⟨0, _⟩ => rfl
      | ⟨1, _⟩ => rfl),
    broadcastInDim_apply ![0] bcast_S1024_S1024x1_0 _ (ix2 cm (0 : Fin 1)) (ix1 cm) (fun ax => by
      match ax with
      | ⟨0, _⟩ => rfl),
    scaleVec_apply]

/-- The bias column: β minus the running mean times the scale, as a 1024 × 1 matrix. -/
def biasCol (β mean γ var : FVec Ideal S1024 .f32) : FVec Ideal S1024x1 .f32 :=
  shapeCast S1024x1 (subf β (mulf mean (scaleVec γ var))) shapeCasts_S1024_S1024x1

/-- Its entry in row cm. -/
theorem biasCol_apply (β mean γ var : FVec Ideal S1024 .f32) (cm : Fin 1024) (z : Fin 1) :
    biasCol β mean γ var (ix2 cm z) = β (ix1 cm) - mean (ix1 cm) * Cert.Bottleneck.scaleDiv γ var cm := by
  unfold biasCol
  rw [Cert.LibLayout.shapeCast_a_a1_apply]
  show β (ix1 cm) - mean (ix1 cm) * scaleVec γ var (ix1 cm) = _
  rw [scaleVec_apply]

/-- The second weights as a matrix. -/
def w2Mat (w2 : FVec Ideal S256x1024x1x1 .f32) : FVec Ideal S256x1024 .bf16 :=
  truncf .bf16 (shapeCast S256x1024 w2 shapeCasts_S256x1024x1x1_S256x1024) bitsLt_bf16_f32

/-- Entry (co, cm) of it is the weight at (co, cm, 0, 0). -/
theorem w2Mat_apply (w2 : FVec Ideal S256x1024x1x1 .f32) (co : Fin 256) (cm : Fin 1024) :
    w2Mat w2 (ix2 co cm) = w2 (ix4 co cm 0 0) := by
  unfold w2Mat
  show shapeCast S256x1024 w2 shapeCasts_S256x1024x1x1_S256x1024 (ix2 co cm) = _
  exact shapeCast_apply w2 shapeCasts_S256x1024x1x1_S256x1024 (ix2 co cm) (ix4 co cm 0 0) (by
    rw [Shape.rowMajor_val_four, Shape.rowMajor_val_two]
    show ((co.val * 1024 + cm.val) * 1 + 0) * 1 + 0 = co.val * 1024 + cm.val
    omega)

/-! ## The arrays as the region finds them -/

/-- Window 0's array: the padded input. -/
theorem V_x (c : Dev nD) : (V m c main_v2 : S32x256x256.Idx → EReal)
    = padded (m ((c : Thread nD τ).loc main_arg0)) shapeCasts_S32x256x14x14_S32x256x196 pads_S32x256x196_S32x256x256_000_000_0600 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Window 3's array: the padded skip. -/
theorem V_skip (c : Dev nD) : (V m c main_v3 : S32x1024x256.Idx → EReal)
    = padded (m ((c : Thread nD τ).loc main_arg1)) shapeCasts_S32x1024x14x14_S32x1024x196 pads_S32x1024x196_S32x1024x256_000_000_0600 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Window 1's array: the scaled first weights. -/
theorem V_w1 (c : Dev nD) : (V m c main_v15 : S1024x256.Idx → EReal)
    = w1Scaled (m ((c : Thread nD τ).loc main_arg2)) (m ((c : Thread nD τ).loc main_arg3)) (m ((c : Thread nD τ).loc main_arg6)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Window 2's array: the bias column. -/
theorem V_bias (c : Dev nD) : (V m c main_v10 : S1024x1.Idx → EReal)
    = biasCol (m ((c : Thread nD τ).loc main_arg4)) (m ((c : Thread nD τ).loc main_arg5)) (m ((c : Thread nD τ).loc main_arg3)) (m ((c : Thread nD τ).loc main_arg6)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Window 4's array: the second weights as a matrix. -/
theorem V_w2 (c : Dev nD) : (V m c main_v17 : S256x1024.Idx → EReal) = w2Mat (m ((c : Thread nD τ).loc main_arg7)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

end Cert.ReferenceIdeal.RefValue

end
-- ==== Proof.RefCore.lean ====
/-
  The reference's arithmetic at one output entry, with no program in sight.

  For one pixel and one output channel the reference body works through the 1024 middle channels in four runs of 256:
  for each run it forms the hidden activations (first 1×1 convolution, bias, skip, ReLU) and adds their product with the
  matching 256 columns of the second convolution's weights to an accumulator that starts at zero.  `core` is that
  number as a function of five families of extended reals (the pixel's input channels, the folded first weights, the
  bias, the pixel's skip channels, the output channel's second weights).  The theorem `G_eq_core` says the shared
  specification `Cert.Bottleneck.G` is `core` of the obvious families: a sum over 1024 indices is the sum of its four
  quarters, zero is neutral for addition, and products commute.  Nothing here needs finiteness.
-/
import proofs.«148798_g2000004446570603_pallasbulk_806_6_alg».proof.Proof.Spec

noncomputable section

namespace Cert.ReferenceIdeal.RefValue

open Idealize.ShloMosaic Idealize.ShloMosaic.ValueIdx
open scoped BigOperators

/-- The hidden activation of middle channel `cm`, in the reference's order of operations: the weights times the inputs
    summed over the 256 input channels, plus the bias, plus the skip, clamped below at zero. -/
def hidC (fx : Fin 256 → EReal) (fw1 : Fin 1024 → Fin 256 → EReal) (fb fs : Fin 1024 → EReal) (cm : Fin 1024) : EReal :=
  max (((∑ ci : Fin 256, fw1 cm ci * fx ci) + fb cm) + fs cm) 0

/-- One run of 256 middle channels starting at `o`: the second weights times the hidden activations, summed. -/
def chunk (fw2 g : Fin 1024 → EReal) (o : ℕ) (ho : o + 256 ≤ 1024) : EReal :=
  ∑ k : Fin 256, fw2 ⟨o + k.val, by omega⟩ * g ⟨o + k.val, by omega⟩

/-- The output entry as the reference accumulates it: zero, then the four runs added one after the other. -/
def core (fx : Fin 256 → EReal) (fw1 : Fin 1024 → Fin 256 → EReal) (fb fs fw2 : Fin 1024 → EReal) : EReal :=
  (((0 + chunk fw2 (hidC fx fw1 fb fs) 0 (by omega)) + chunk fw2 (hidC fx fw1 fb fs) 256 (by omega))
    + chunk fw2 (hidC fx fw1 fb fs) 512 (by omega)) + chunk fw2 (hidC fx fw1 fb fs) 768 (by omega)

/-- A sum over 1024 indices is the sum of its four quarters. -/
theorem sum_quarters (f : Fin 1024 → EReal) :
    ∑ cm : Fin 1024, f cm = ((∑ k : Fin 256, f ⟨0 + k.val, by omega⟩ + ∑ k : Fin 256, f ⟨256 + k.val, by omega⟩)
      + ∑ k : Fin 256, f ⟨512 + k.val, by omega⟩) + ∑ k : Fin 256, f ⟨768 + k.val, by omega⟩ := by
  have e1 := Fin.sum_univ_add (a := 768) (b := 256) f
  have e2 := Fin.sum_univ_add (a := 512) (b := 256) (fun i : Fin 768 => f (Fin.castAdd 256 i))
  have e3 := Fin.sum_univ_add (a := 256) (b := 256) (fun i : Fin 512 => f (Fin.castAdd 256 (Fin.castAdd 256 i)))
  rw [e1, e2, e3]
  refine congrArg₂ (· + ·) (congrArg₂ (· + ·) (congrArg₂ (· + ·) ?_ ?_) ?_) ?_
  all_goals exact Finset.sum_congr rfl fun k _ => congrArg f (Fin.ext (by simp <;> omega))

/-- The specification's hidden activation is `hidC` of the pixel's families: each product commuted. -/
theorem hid_eq_hidC (x : Cert.Bottleneck.SX.Idx → EReal) (s : Cert.Bottleneck.SS.Idx → EReal)
    (w1 : Cert.Bottleneck.SW1.Idx → EReal) (β mean : Cert.Bottleneck.SC.Idx → EReal) (sc : Fin 1024 → EReal)
    (n : Fin 32) (h w : Fin 14) (cm : Fin 1024) :
    Cert.Bottleneck.hid x s w1 β mean sc n h w cm
      = hidC (fun ci => x (ix4 n ci h w)) (fun cm ci => w1 (ix4 cm ci 0 0) * sc cm)
          (fun cm => β (ix1 cm) - mean (ix1 cm) * sc cm) (fun cm => s (ix4 n cm h w)) cm := by
  unfold Cert.Bottleneck.hid hidC
  refine congrArg (fun z => max ((z + _) + _) 0) ?_
  exact Finset.sum_congr rfl fun ci _ => mul_comm _ _

/-- The specification at a pixel and an output channel is `core` of that pixel's and channel's families. -/
theorem G_eq_core (x : Cert.Bottleneck.SX.Idx → EReal) (s : Cert.Bottleneck.SS.Idx → EReal)
    (w1 : Cert.Bottleneck.SW1.Idx → EReal) (w2 : Cert.Bottleneck.SW2.Idx → EReal)
    (β mean : Cert.Bottleneck.SC.Idx → EReal) (sc : Fin 1024 → EReal)
    (n : Fin 32) (co : Fin 256) (h w : Fin 14) :
    Cert.Bottleneck.G x s w1 w2 β mean sc (ix4 n co h w)
      = core (fun ci => x (ix4 n ci h w)) (fun cm ci => w1 (ix4 cm ci 0 0) * sc cm)
          (fun cm => β (ix1 cm) - mean (ix1 cm) * sc cm) (fun cm => s (ix4 n cm h w))
          (fun cm => w2 (ix4 co cm 0 0)) := by
  show ∑ cm : Fin 1024, Cert.Bottleneck.hid x s w1 β mean sc n h w cm * w2 (ix4 co cm 0 0) = _
  unfold core chunk
  rw [zero_add, sum_quarters]
  refine congrArg₂ (· + ·) (congrArg₂ (· + ·) (congrArg₂ (· + ·) ?_ ?_) ?_) ?_
  all_goals exact Finset.sum_congr rfl fun k _ => by rw [hid_eq_hidC, mul_comm]

end Cert.ReferenceIdeal.RefValue

end
-- ==== Proof.RefBody.lean ====
/-
  What the reference's kernel body leaves in its output block, read at one entry.

  The body holds one image's 256 input channels at 128 pixels (a block [1, 256, 128]), the whole scaled first weights
  [1024, 256], the bias column [1024, 1], the image's 1024 skip channels at the same pixels, and the whole second
  weights [256, 1024].  It cuts the 1024 middle channels into four runs of 256 rows; for each run it multiplies the
  weight rows with the input block (a matrix product contracting the 256 input channels), adds the bias (broadcast along
  the pixels) and the skip rows, clamps at zero, and multiplies the matching 256 columns of the second weights with that
  (contracting the run's 256 channels), adding the product to an accumulator that starts as zeros.  At entry
  (output channel co, pixel l) the block therefore holds `core` of: the input block's column l, the first weights, the bias
  column, the skip block's column l, and row co of the second weights.
-/
import proofs.«148798_g2000004446570603_pallasbulk_806_6_alg».proof.Proof.Gen.ReferenceIdeal.Frame
import proofs.«148798_g2000004446570603_pallasbulk_806_6_alg».proof.Proof.RefCore
import proofs.«148798_g2000004446570603_pallasbulk_806_6_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-! ## The matrix product of a 256 × 256 block with a 256 × 128 block -/

/-- The product's dimension numbers: rows of the left operand times columns of the right one. -/
abbrev DD : DotDims S256x256 S256x128 S256x128 := dot_S256x256_S256x128_S256x128_1_0_0_1_n_n

theorem lhs_row (i : S256x128.Idx) (q : DD.contr.Idx) : (DD.lhsIdx i q 0).val = (i 0).val := by
  unfold DotDims.lhsIdx
  rw [dif_neg (show ¬(0 : Fin S256x256.rank) ∈ DD.lhsBatch by decide), dif_pos (show (0 : Fin S256x256.rank) ∈ DD.lhsNonContracting by decide)]
  rfl
theorem lhs_col (i : S256x128.Idx) (q : DD.contr.Idx) : (DD.lhsIdx i q 1).val = (q ⟨0, by decide⟩).val :=
  DD.lhsIdx_val_of_single rfl i q
theorem rhs_row (i : S256x128.Idx) (q : DD.contr.Idx) : (DD.rhsIdx i q 0).val = (q ⟨0, by decide⟩).val :=
  DD.rhsIdx_val_of_single rfl i q
theorem rhs_col (i : S256x128.Idx) (q : DD.contr.Idx) : (DD.rhsIdx i q 1).val = (i 1).val := by
  unfold DotDims.rhsIdx
  rw [dif_neg (show ¬(1 : Fin S256x128.rank) ∈ DD.rhsBatch by decide), dif_pos (show (1 : Fin S256x128.rank) ∈ DD.rhsNonContracting by decide)]
  rfl

/-- Into a zero accumulator the product at (r, l) is the sum over k of left (r, k) times right (k, l). -/
theorem mm_apply (A : FVec Ideal S256x256 .bf16) (B : FVec Ideal S256x128 .bf16) (r : Fin 256) (l : Fin 128) :
    matmul DD none A B (constant S256x128 .f32 0x00000000#32) (ix2 r l) = ∑ k : Fin 256, A (ix2 r k) * B (ix2 k l) := by
  simp only [matmul]
  rw [Ideal.matmul_constant_zero_apply, ← Equiv.sum_comp (contrEquiv1 DD 256 rfl rfl).symm]
  refine Finset.sum_congr rfl fun k _ => ?_
  have hk := contrEquiv1_symm_val DD 256 rfl rfl k
  have el : DD.lhsIdx (ix2 r l) ((contrEquiv1 DD 256 rfl rfl).symm k) = ix2 r k := funext fun a => Fin.ext (by
    match a with
    | ⟨0, _⟩ => exact lhs_row _ _
    | ⟨1, _⟩ => exact (lhs_col _ _).trans hk)
  have er : DD.rhsIdx (ix2 r l) ((contrEquiv1 DD 256 rfl rfl).symm k) = ix2 k l := funext fun a => Fin.ext (by
    match a with
    | ⟨0, _⟩ => exact (rhs_row _ _).trans hk
    | ⟨1, _⟩ => exact rhs_col _ _)
  rw [el, er]

/-- The second product of a run: 256 columns of the second weights times the run's hidden activations. -/
def mmW (W : FVec Ideal S256x256 .bf16) (hb : FVec Ideal S256x128 .f32) : FVec Ideal S256x128 .f32 :=
  matmul DD none (shapeCast S256x256 W shapeCasts_S256x256_S256x256) (truncf .bf16 hb bitsLt_bf16_f32) (constant S256x128 .f32 0x00000000#32)

theorem mmW_apply (W : FVec Ideal S256x256 .bf16) (hb : FVec Ideal S256x128 .f32) (co : Fin 256) (l : Fin 128) :
    mmW W hb (ix2 co l) = ∑ k : Fin 256, W (ix2 co k) * hb (ix2 k l) := by
  unfold mmW
  rw [mm_apply, shapeCast_self]
  rfl

/-! ## The payloads -/

/-- The input block as a matrix of channels by pixels. -/
theorem pay2_apply (x0 : Vec Ideal S1x256x128 .f32) (ci : Fin 256) (l : Fin 128) :
    k0_pay2 x0 (ix2 ci l) = x0 (ix3 (0 : Fin 1) ci l) := by
  unfold k0_pay2
  exact shapeCast_1ab_ab_apply x0 shapeCasts_S1x256x128_S256x128 ci l

/-- A run's hidden activations at (row k of the run, pixel l). -/
theorem pay6_apply (v2 : FVec Ideal S256x128 .bf16) (A : Vec Ideal S256x256 .bf16) (B : Vec Ideal S256x1 .f32)
    (S : Vec Ideal S1x256x128 .f32) (k : Fin 256) (l : Fin 128) :
    k0_pay6 v2 A B S (ix2 k l)
      = max (((∑ ci : Fin 256, A (ix2 k ci) * v2 (ix2 ci l)) + B (ix2 k (0 : Fin 1))) + S (ix3 (0 : Fin 1) k l)) 0 := by
  unfold k0_pay6
  show max ((matmul DD none (shapeCast S256x256 A shapeCasts_S256x256_S256x256) v2 (constant S256x128 .f32 0x00000000#32) (ix2 k l)
        + broadcastTo S256x128 (shapeCast S256x1 B shapeCasts_S256x1_S256x1) broadcasts_S256x1_S256x128 (ix2 k l))
        + shapeCast S256x128 S shapeCasts_S1x256x128_S256x128 (ix2 k l)) (Ideal.ofBits .f32 0x00000000#32) = _
  rw [mm_apply, shapeCast_self, shapeCast_self, Cert.LibLayout.broadcastTo_a1_ab_apply, shapeCast_1ab_ab_apply,
    Ideal.ofBits_zero_f32]

/-- The four payloads the output is composed of are sums and products of `mmW` and the hidden activations. -/
theorem pay4_eq (x0 : Vec Ideal S1x256x128 .f32) (A : Vec Ideal S256x256 .bf16) (B : Vec Ideal S256x1 .f32) (S : Vec Ideal S1x256x128 .f32) :
    k0_pay4 x0 A B S = k0_pay6 (k0_pay2 x0) A B S := rfl
theorem pay3_eq (x0 : Vec Ideal S1x256x128 .f32) (A : Vec Ideal S256x256 .bf16) (B : Vec Ideal S256x1 .f32) (S : Vec Ideal S1x256x128 .f32)
    (W : FVec Ideal S256x256 .bf16) :
    k0_pay3 x0 A B S W = addf (broadcast S256x128 (Scalar.ofBits (F := Ideal) .f32 0x00000000#32)) (mmW W (k0_pay6 (k0_pay2 x0) A B S)) := rfl
theorem pay5_eq (v2 : FVec Ideal S256x128 .bf16) (v20 v32 : FVec Ideal S256x128 .f32) (W1 : FVec Ideal S256x256 .bf16) (A : Vec Ideal S256x256 .bf16)
    (Bc : Vec Ideal S256x1 .f32) (S : Vec Ideal S1x256x128 .f32) (W2 : FVec Ideal S256x256 .bf16) :
    k0_pay5 v2 v20 v32 W1 A Bc S W2 = addf (addf v20 (mmW W1 v32)) (mmW W2 (k0_pay6 v2 A Bc S)) := rfl
theorem pay1_eq (v54 v66 : FVec Ideal S256x128 .f32) (W : FVec Ideal S256x256 .bf16) :
    k0_pay1 v54 v66 W = shapeCast S1x256x128 (addf v54 (mmW W v66)) shapeCasts_S256x128_S1x256x128 := rfl

/-! ## Loads of one run's rows or columns out of a whole block -/

theorem ld_w1 (x1 : Vec Ideal S1024x256 .bf16) (o : ℕ) (inb : ∀ a, (![o, 0] : Fin 2 → Nat) a + S256x256.size a ≤ S1024x256.size a)
    (k ci : Fin 256) :
    View.ld x1 (Rect.unit (s := S1024x256) ![o, 0] S256x256.size inb) (ix2 k ci)
      = x1 (ix2 (⟨o + k.val, lt_of_lt_of_le (Nat.add_lt_add_left k.isLt o) (inb 0)⟩ : Fin 1024) ci) := by
  refine congrArg x1 (funext fun a => Fin.ext ?_)
  match a with
  | ⟨0, _⟩ => show o + 1 * k.val = o + k.val; omega
  | ⟨1, _⟩ => show 0 + 1 * ci.val = ci.val; omega

theorem ld_w2 (x4 : Vec Ideal S256x1024 .bf16) (o : ℕ) (inb : ∀ a, (![0, o] : Fin 2 → Nat) a + S256x256.size a ≤ S256x1024.size a)
    (co k : Fin 256) :
    View.ld x4 (Rect.unit (s := S256x1024) ![0, o] S256x256.size inb) (ix2 co k)
      = x4 (ix2 co (⟨o + k.val, lt_of_lt_of_le (Nat.add_lt_add_left k.isLt o) (inb 1)⟩ : Fin 1024)) := by
  refine congrArg x4 (funext fun a => Fin.ext ?_)
  match a with
  | ⟨0, _⟩ => show 0 + 1 * co.val = co.val; omega
  | ⟨1, _⟩ => show o + 1 * k.val = o + k.val; omega

theorem ld_b (x2 : Vec Ideal S1024x1 .f32) (o : ℕ) (inb : ∀ a, (![o, 0] : Fin 2 → Nat) a + S256x1.size a ≤ S1024x1.size a)
    (k : Fin 256) (z : Fin 1) :
    View.ld x2 (Rect.unit (s := S1024x1) ![o, 0] S256x1.size inb) (ix2 k z)
      = x2 (ix2 (⟨o + k.val, lt_of_lt_of_le (Nat.add_lt_add_left k.isLt o) (inb 0)⟩ : Fin 1024) z) := by
  refine congrArg x2 (funext fun a => Fin.ext ?_)
  match a with
  | ⟨0, _⟩ => show o + 1 * k.val = o + k.val; omega
  | ⟨1, _⟩ => show 0 + 1 * z.val = z.val; omega

theorem ld_s (x3 : Vec Ideal S1x1024x128 .f32) (o : ℕ) (inb : ∀ a, (![0, o, 0] : Fin 3 → Nat) a + S1x256x128.size a ≤ S1x1024x128.size a)
    (u : Fin 1) (k : Fin 256) (l : Fin 128) :
    View.ld x3 (Rect.unit (s := S1x1024x128) ![0, o, 0] S1x256x128.size inb) (ix3 u k l)
      = x3 (ix3 u (⟨o + k.val, lt_of_lt_of_le (Nat.add_lt_add_left k.isLt o) (inb 1)⟩ : Fin 1024) l) := by
  refine congrArg x3 (funext fun a => Fin.ext ?_)
  match a with
  | ⟨0, _⟩ => show 0 + 1 * u.val = u.val; omega
  | ⟨1, _⟩ => show o + 1 * k.val = o + k.val; omega
  | ⟨2, _⟩ => show 0 + 1 * l.val = l.val; omega

/-! ## The output block -/

theorem hz3 : (![0, 0, 0] : Fin 3 → Nat) = fun _ => 0 := funext fun a => by fin_cases a <;> rfl

/-- The hidden activation of row k of a run at pixel l, over the run's loaded rows. -/
def hidB (x0 : Vec Ideal S1x256x128 .f32) (A : Vec Ideal S256x256 .bf16) (B : Vec Ideal S256x1 .f32) (S : Vec Ideal S1x256x128 .f32)
    (l : Fin 128) (k : Fin 256) : EReal :=
  max (((∑ ci : Fin 256, A (ix2 k ci) * x0 (ix3 (0 : Fin 1) ci l)) + B (ix2 k (0 : Fin 1))) + S (ix3 (0 : Fin 1) k l)) 0

/-- The stored value at (co, l): zero plus the four runs' products, in order. -/
theorem body_apply (x0 : Vec Ideal S1x256x128 .f32) (A0 A1 A2 A3 : Vec Ideal S256x256 .bf16) (W0 W1 W2 W3 : FVec Ideal S256x256 .bf16)
    (B0 B1 B2 B3 : Vec Ideal S256x1 .f32) (S0 S1 S2 S3 : Vec Ideal S1x256x128 .f32) (u : Fin 1) (co : Fin 256) (l : Fin 128) :
    k0_pay1 (k0_pay5 (k0_pay2 x0) (k0_pay3 x0 A0 B0 S0 W0) (k0_pay4 x0 A1 B1 S1) W1 A2 B2 S2 W2) (k0_pay6 (k0_pay2 x0) A3 B3 S3) W3 (ix3 u co l)
      = (((0 + ∑ k : Fin 256, W0 (ix2 co k) * hidB x0 A0 B0 S0 l k) + ∑ k : Fin 256, W1 (ix2 co k) * hidB x0 A1 B1 S1 l k)
          + ∑ k : Fin 256, W2 (ix2 co k) * hidB x0 A2 B2 S2 l k) + ∑ k : Fin 256, W3 (ix2 co k) * hidB x0 A3 B3 S3 l k := by
  rw [pay1_eq, shapeCast_ab_1ab_apply, pay5_eq, pay3_eq, pay4_eq]
  show (((Ideal.ofBits .f32 0x00000000#32 + mmW W0 (k0_pay6 (k0_pay2 x0) A0 B0 S0) (ix2 co l))
      + mmW W1 (k0_pay6 (k0_pay2 x0) A1 B1 S1) (ix2 co l)) + mmW W2 (k0_pay6 (k0_pay2 x0) A2 B2 S2) (ix2 co l))
      + mmW W3 (k0_pay6 (k0_pay2 x0) A3 B3 S3) (ix2 co l) = _
  rw [Ideal.ofBits_zero_f32]
  simp only [mmW_apply, pay6_apply, pay2_apply]
  rfl

/-- The same with the sixteen loaded pieces named by what they hold: piece c of a family reads entry 256·c + k of the
    family at its own entry k.  Then the stored value is `core`. -/
theorem body_core (x0 : Vec Ideal S1x256x128 .f32) (A0 A1 A2 A3 : Vec Ideal S256x256 .bf16) (W0 W1 W2 W3 : FVec Ideal S256x256 .bf16)
    (B0 B1 B2 B3 : Vec Ideal S256x1 .f32) (S0 S1 S2 S3 : Vec Ideal S1x256x128 .f32) (u : Fin 1) (co : Fin 256) (l : Fin 128)
    (fw1 : Fin 1024 → Fin 256 → EReal) (fb fs fw2 : Fin 1024 → EReal)
    (hA0 : ∀ k ci : Fin 256, A0 (ix2 k ci) = fw1 ⟨0 + k.val, by omega⟩ ci)
    (hA1 : ∀ k ci : Fin 256, A1 (ix2 k ci) = fw1 ⟨256 + k.val, by omega⟩ ci)
    (hA2 : ∀ k ci : Fin 256, A2 (ix2 k ci) = fw1 ⟨512 + k.val, by omega⟩ ci)
    (hA3 : ∀ k ci : Fin 256, A3 (ix2 k ci) = fw1 ⟨768 + k.val, by omega⟩ ci)
    (hB0 : ∀ k : Fin 256, B0 (ix2 k (0 : Fin 1)) = fb ⟨0 + k.val, by omega⟩)
    (hB1 : ∀ k : Fin 256, B1 (ix2 k (0 : Fin 1)) = fb ⟨256 + k.val, by omega⟩)
    (hB2 : ∀ k : Fin 256, B2 (ix2 k (0 : Fin 1)) = fb ⟨512 + k.val, by omega⟩)
    (hB3 : ∀ k : Fin 256, B3 (ix2 k (0 : Fin 1)) = fb ⟨768 + k.val, by omega⟩)
    (hS0 : ∀ k : Fin 256, S0 (ix3 (0 : Fin 1) k l) = fs ⟨0 + k.val, by omega⟩)
    (hS1 : ∀ k : Fin 256, S1 (ix3 (0 : Fin 1) k l) = fs ⟨256 + k.val, by omega⟩)
    (hS2 : ∀ k : Fin 256, S2 (ix3 (0 : Fin 1) k l) = fs ⟨512 + k.val, by omega⟩)
    (hS3 : ∀ k : Fin 256, S3 (ix3 (0 : Fin 1) k l) = fs ⟨768 + k.val, by omega⟩)
    (hW0 : ∀ k : Fin 256, W0 (ix2 co k) = fw2 ⟨0 + k.val, by omega⟩)
    (hW1 : ∀ k : Fin 256, W1 (ix2 co k) = fw2 ⟨256 + k.val, by omega⟩)
    (hW2 : ∀ k : Fin 256, W2 (ix2 co k) = fw2 ⟨512 + k.val, by omega⟩)
    (hW3 : ∀ k : Fin 256, W3 (ix2 co k) = fw2 ⟨768 + k.val, by omega⟩) :
    k0_pay1 (k0_pay5 (k0_pay2 x0) (k0_pay3 x0 A0 B0 S0 W0) (k0_pay4 x0 A1 B1 S1) W1 A2 B2 S2 W2) (k0_pay6 (k0_pay2 x0) A3 B3 S3) W3 (ix3 u co l)
      = core (fun ci => x0 (ix3 (0 : Fin 1) ci l)) fw1 fb fs fw2 := by
  rw [body_apply]
  unfold hidB core chunk hidC
  simp only [hA0, hA1, hA2, hA3, hB0, hB1, hB2, hB3, hS0, hS1, hS2, hS3, hW0, hW1, hW2, hW3]

/-- What the body leaves in the output block at entry (co, l): `core` of column l of the input and skip blocks, the
    first weights, the bias column, and row co of the second weights. -/
theorem out_apply_ix (x0 : Vec Ideal S1x256x128 .f32) (x1 : Vec Ideal S1024x256 .bf16) (x2 : Vec Ideal S1024x1 .f32)
    (x3 : Vec Ideal S1x1024x128 .f32) (x4 : Vec Ideal S256x1024 .bf16) (u : Fin 1) (co : Fin 256) (l : Fin 128) :
    out0_5 x0 x1 x2 x3 x4 (ix3 u co l)
      = core (fun ci => x0 (ix3 (0 : Fin 1) ci l)) (fun cm ci => x1 (ix2 cm ci)) (fun cm => x2 (ix2 cm (0 : Fin 1)))
          (fun cm => x3 (ix3 (0 : Fin 1) cm l)) (fun cm => x4 (ix2 co cm)) := by
  unfold out0_5
  rw [View.canon_unit_zero hz3]
  simp only [View.ld_unit_zero (S := S1x256x128) hz3]
  exact body_core x0 (View.ld x1 r0_1) (View.ld x1 r0_5) (View.ld x1 r0_9) (View.ld x1 r0_13)
    (View.ld x4 r0_4) (View.ld x4 r0_8) (View.ld x4 r0_12) (View.ld x4 r0_16)
    (View.ld x2 r0_2) (View.ld x2 r0_6) (View.ld x2 r0_10) (View.ld x2 r0_14)
    (View.ld x3 r0_3) (View.ld x3 r0_7) (View.ld x3 r0_11) (View.ld x3 r0_15) u co l
    (fun cm ci => x1 (ix2 cm ci)) (fun cm => x2 (ix2 cm (0 : Fin 1))) (fun cm => x3 (ix3 (0 : Fin 1) cm l)) (fun cm => x4 (ix2 co cm))
    (ld_w1 x1 0 _) (ld_w1 x1 256 _) (ld_w1 x1 512 _) (ld_w1 x1 768 _)
    (fun k => ld_b x2 0 _ k 0) (fun k => ld_b x2 256 _ k 0) (fun k => ld_b x2 512 _ k 0) (fun k => ld_b x2 768 _ k 0)
    (fun k => ld_s x3 0 _ 0 k l) (fun k => ld_s x3 256 _ 0 k l) (fun k => ld_s x3 512 _ 0 k l) (fun k => ld_s x3 768 _ 0 k l)
    (ld_w2 x4 0 _ co) (ld_w2 x4 256 _ co) (ld_w2 x4 512 _ co) (ld_w2 x4 768 _ co)

/-- The same at any entry j of the block. -/
theorem out_apply (x0 : Vec Ideal S1x256x128 .f32) (x1 : Vec Ideal S1024x256 .bf16) (x2 : Vec Ideal S1024x1 .f32)
    (x3 : Vec Ideal S1x1024x128 .f32) (x4 : Vec Ideal S256x1024 .bf16) (j : S1x256x128.Idx) :
    out0_5 x0 x1 x2 x3 x4 j
      = core (fun ci => x0 (ix3 (0 : Fin 1) ci (j 2))) (fun cm ci => x1 (ix2 cm ci)) (fun cm => x2 (ix2 cm (0 : Fin 1)))
          (fun cm => x3 (ix3 (0 : Fin 1) cm (j 2))) (fun cm => x4 (ix2 (j 1) cm)) := by
  obtain ⟨u, co, l, rfl⟩ : ∃ (u : Fin 1) (co : Fin 256) (l : Fin 128), j = ix3 u co l := ⟨j 0, j 1, j 2, eq_ix3 j⟩
  exact out_apply_ix x0 x1 x2 x3 x4 u co l

end Cert.ReferenceIdeal.RefValue

end
-- ==== Proof.RefBlocks.lean ====
/-
  From blocks to the whole padded output array.

  The grid has 32 × 2 points; point (n, i) works on image n and on pixel columns 128·i … 128·i + 127 of the padded
  256: it reads that block of the padded input and of the padded skip, the whole of the two weight matrices and of the
  bias column, and writes back the same block of the output.  The 64 blocks tile the [32, 256, 256] output, so after the
  run its entry (n, co, j) is `core` of: column j of image n's padded input, the first weights, the bias column, column j
  of image n's padded skip, and row co of the second weights — for every j below 256, the padding columns included.
-/
import proofs.«148798_g2000004446570603_pallasbulk_806_6_alg».proof.Proof.Gen.ReferenceIdeal.Frame
import proofs.«148798_g2000004446570603_pallasbulk_806_6_alg».proof.Proof.RefBody
import Idealize.ShloMosaic.Lib.Pipeline.Value

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat Cfg Window)
open scoped BigOperators

variable (m : (ℓ : Loc nD τ sig) → Buf (Elt Ideal) ℓ)

/-- The five arrays the region is launched on, on core c, as functions into the extended reals. -/
abbrev vX (c : Dev nD) : S32x256x256.Idx → EReal := V m c main_v2
abbrev vW1 (c : Dev nD) : S1024x256.Idx → EReal := V m c main_v15
abbrev vB (c : Dev nD) : S1024x1.Idx → EReal := V m c main_v10
abbrev vS (c : Dev nD) : S32x1024x256.Idx → EReal := V m c main_v3
abbrev vW2 (c : Dev nD) : S256x1024.Idx → EReal := V m c main_v17

/-- The padded output array, entry by entry. -/
def outArr (c : Dev nD) : S32x256x256.Idx → EReal := fun i =>
  core (fun ci => vX m c (ix3 (i 0) ci (i 2))) (fun cm ci => vW1 m c (ix2 cm ci)) (fun cm => vB m c (ix2 cm (0 : Fin 1)))
    (fun cm => vS m c (ix3 (i 0) cm (i 2))) (fun cm => vW2 m c (ix2 (i 1) cm))

/-- `core` of equal families is equal. -/
theorem core_congr {fx fx' : Fin 256 → EReal} {fw1 fw1' : Fin 1024 → Fin 256 → EReal} {fb fb' fs fs' fw2 fw2' : Fin 1024 → EReal}
    (h0 : fx = fx') (h1 : fw1 = fw1') (h2 : fb = fb') (h3 : fs = fs') (h4 : fw2 = fw2') :
    core fx fw1 fb fs fw2 = core fx' fw1' fb' fs' fw2' := by
  subst h0 h1 h2 h3 h4; rfl

/-- The block index maps over the grid: the input and skip blocks move with the output's block (image and column
    block, channel block zero); the weights and the bias sit at block zero; the output's image is below 32 and its
    column block below 2. -/
theorem index_facts : ∀ t : Fin cfg0.N,
    win0_0.index t (0 : Fin 3) = win0_5.index t (0 : Fin 3) ∧ win0_0.index t (1 : Fin 3) = 0
    ∧ win0_0.index t (2 : Fin 3) = win0_5.index t (2 : Fin 3)
    ∧ win0_3.index t (0 : Fin 3) = win0_5.index t (0 : Fin 3) ∧ win0_3.index t (1 : Fin 3) = 0
    ∧ win0_3.index t (2 : Fin 3) = win0_5.index t (2 : Fin 3)
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (1 : Fin 3) = 0 :=
  (by decide +kernel : ∀ t : Fin grid0.N, _)

/-- Every (image, column block) is some point's. -/
theorem index_onto : ∀ (q0 : Fin 32) (q2 : Fin 2), ∃ t : Fin cfg0.N, win0_5.index t = ![q0.val, 0, q2.val] :=
  (by decide +kernel : ∀ (q0 : Fin 32) (q2 : Fin 2), ∃ t : Fin grid0.N, win0_5.index t = ![q0.val, 0, q2.val])

/-- What point t writes back is block t of the padded output array. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  obtain ⟨f00, f01, f02, f30, f31, f32, f10, f11, f20, f21, f40, f41, f51⟩ := index_facts t
  funext j
  obtain ⟨u, co, l, rfl⟩ : ∃ (u : Fin 1) (co : Fin 256) (l : Fin 128), j = ix3 u co l := ⟨j 0, j 1, j 2, eq_ix3 j⟩
  show out0_5 (F := Ideal) (iblk m c 0 t) (iblk m c 1 t) (iblk m c 2 t) (iblk m c 3 t) (iblk m c 4 t) (ix3 u co l)
      = outArr m c (((cfg0.win 5).blk t).view.emb (ix3 u co l))
  refine (out_apply_ix (iblk m c 0 t) (iblk m c 1 t) (iblk m c 2 t) (iblk m c 3 t) (iblk m c 4 t) u co l).trans ?_
  have hu : u.val = 0 := by omega
  have h0 : ∀ ci : Fin 256, iblk m c 0 t (ix3 (0 : Fin 1) ci l)
      = vX m c (ix3 ((((cfg0.win 5).blk t).view.emb (ix3 u co l)) 0) ci ((((cfg0.win 5).blk t).view.emb (ix3 u co l)) 2)) := fun ci => by
    show V m c main_v2 (((cfg0.win 0).blk t).view.emb (ix3 (0 : Fin 1) ci l)) = V m c main_v2 _
    refine congrArg _ (funext fun a => Fin.ext ?_)
    match a with
    | ⟨0, _⟩ => show win0_0.index t (0 : Fin 3) * 1 + 1 * 0 = win0_5.index t (0 : Fin 3) * 1 + 1 * u.val; omega
    | ⟨1, _⟩ => show win0_0.index t (1 : Fin 3) * 256 + 1 * ci.val = ci.val; omega
    | ⟨2, _⟩ => show win0_0.index t (2 : Fin 3) * 128 + 1 * l.val = win0_5.index t (2 : Fin 3) * 128 + 1 * l.val; omega
  have h1 : ∀ (cm : Fin 1024) (ci : Fin 256), iblk m c 1 t (ix2 cm ci) = vW1 m c (ix2 cm ci) := fun cm ci => by
    show V m c main_v15 (((cfg0.win 1).blk t).view.emb (ix2 cm ci)) = V m c main_v15 _
    refine congrArg _ (funext fun a => Fin.ext ?_)
    match a with
    | ⟨0, _⟩ => show win0_1.index t (0 : Fin 2) * 1024 + 1 * cm.val = cm.val; omega
    | ⟨1, _⟩ => show win0_1.index t (1 : Fin 2) * 256 + 1 * ci.val = ci.val; omega
  have h2 : ∀ cm : Fin 1024, iblk m c 2 t (ix2 cm (0 : Fin 1)) = vB m c (ix2 cm (0 : Fin 1)) := fun cm => by
    show V m c main_v10 (((cfg0.win 2).blk t).view.emb (ix2 cm (0 : Fin 1))) = V m c main_v10 _
    refine congrArg _ (funext fun a => Fin.ext ?_)
    match a with
    | ⟨0, _⟩ => show win0_2.index t (0 : Fin 2) * 1024 + 1 * cm.val = cm.val; omega
    | ⟨1, _⟩ => show win0_2.index t (1 : Fin 2) * 1 + 1 * 0 = 0; omega
  have h3 : ∀ cm : Fin 1024, iblk m c 3 t (ix3 (0 : Fin 1) cm l)
      = vS m c (ix3 ((((cfg0.win 5).blk t).view.emb (ix3 u co l)) 0) cm ((((cfg0.win 5).blk t).view.emb (ix3 u co l)) 2)) := fun cm => by
    show V m c main_v3 (((cfg0.win 3).blk t).view.emb (ix3 (0 : Fin 1) cm l)) = V m c main_v3 _
    refine congrArg _ (funext fun a => Fin.ext ?_)
    match a with
    | ⟨0, _⟩ => show win0_3.index t (0 : Fin 3) * 1 + 1 * 0 = win0_5.index t (0 : Fin 3) * 1 + 1 * u.val; omega
    | ⟨1, _⟩ => show win0_3.index t (1 : Fin 3) * 1024 + 1 * cm.val = cm.val; omega
    | ⟨2, _⟩ => show win0_3.index t (2 : Fin 3) * 128 + 1 * l.val = win0_5.index t (2 : Fin 3) * 128 + 1 * l.val; omega
  have h4 : ∀ cm : Fin 1024, iblk m c 4 t (ix2 co cm)
      = vW2 m c (ix2 ((((cfg0.win 5).blk t).view.emb (ix3 u co l)) 1) cm) := fun cm => by
    show V m c main_v17 (((cfg0.win 4).blk t).view.emb (ix2 co cm)) = V m c main_v17 _
    refine congrArg _ (funext fun a => Fin.ext ?_)
    match a with
    | ⟨0, _⟩ => show win0_4.index t (0 : Fin 2) * 256 + 1 * co.val = win0_5.index t (1 : Fin 3) * 256 + 1 * co.val; omega
    | ⟨1, _⟩ => show win0_4.index t (1 : Fin 2) * 1024 + 1 * cm.val = cm.val; omega
  unfold outArr
  exact core_congr (funext h0) (funext fun cm => funext fun ci => h1 cm ci) (funext h2) (funext h3) (funext h4)

/-- An index of the output array is in point t's block iff each coordinate is in the block's range on its axis. -/
theorem mem_blk (t : Fin cfg0.N) (i : S32x256x256.Idx) :
    i ∈ ((cfg0.win 5).blk t).view.set ↔ ∀ a : Fin 3, win0_5.index t a * S1x256x128.size a ≤ (i a).val
      ∧ (i a).val < win0_5.index t a * S1x256x128.size a + S1x256x128.size a := by
  show i ∈ ((View.whole main_v18).slice (win0_5.rect t)).set ↔ _
  rw [View.set_slice_whole, Rect.mem_set_unit]
  exact Iff.rfl

/-- Every entry (n, co, j) is in the block of the point (n, j / 128). -/
theorem cover (i : S32x256x256.Idx) :
    ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 256 := (i 2).isLt
  obtain ⟨t, ht⟩ := index_onto ⟨(i 0).val, hi0⟩ ⟨(i 2).val / 128, by omega⟩
  have q0 : win0_5.index t (0 : Fin 3) = (i 0).val := congrFun ht 0
  have q1 : win0_5.index t (1 : Fin 3) = 0 := congrFun ht 1
  have q2 : win0_5.index t (2 : Fin 3) = (i 2).val / 128 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 128 ≤ (i 2).val ∧ (i 2).val < win0_5.index t (2 : Fin 3) * 128 + 128; omega

/-- The padded output array after the run. -/
theorem final (c : Dev nD) : (dats m 0 c).arrAt 5 cfg0.N = outArr m c :=
  (dats m 0 c).arrAt_eq_of_cover 5 (outArr m c) (fun t _ => flushed_eq m c t) cover

end Cert.ReferenceIdeal.RefValue

end
-- ==== Proof.RefRun.lean ====
/-
  The second program's run, read: its result is the bottleneck block G of its arguments, with the folded scale in the
  quotient form γ / sqrt (var + ε).

  After the region the padded output [32, 256, 256] is cut back to its first 196 columns and reshaped to 14 × 14 pixels;
  so the result at (n, co, h, w) is the padded output's entry (n, co, h·14 + w), which is `core` of column h·14 + w of the
  padded input and skip — the arguments at pixel (h, w) —, the scaled first weights, the bias column and row co of the
  second weights: the specification G at (n, co, h, w).  The zero padding never reaches a result entry.
-/
import proofs.«148798_g2000004446570603_pallasbulk_806_6_alg».proof.Proof.Gen.ReferenceIdeal.Frame
import proofs.«148798_g2000004446570603_pallasbulk_806_6_alg».proof.Proof.RefHost
import proofs.«148798_g2000004446570603_pallasbulk_806_6_alg».proof.Proof.RefBlocks
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Bottleneck
open scoped BigOperators

variable (m : (ℓ : Loc nD τ sig) → Buf (Elt Ideal) ℓ) (ρ : Dev nD → PrngReg)

/-- The eight arguments on core c, as functions into the extended reals. -/
abbrev aX (c : Dev nD) : SX.Idx → EReal := m ((c.tc : Thread nD τ).loc main_arg0)
abbrev aSkip (c : Dev nD) : SS.Idx → EReal := m ((c.tc : Thread nD τ).loc main_arg1)
abbrev aW1 (c : Dev nD) : SW1.Idx → EReal := m ((c.tc : Thread nD τ).loc main_arg2)
abbrev aGamma (c : Dev nD) : SC.Idx → EReal := m ((c.tc : Thread nD τ).loc main_arg3)
abbrev aBeta (c : Dev nD) : SC.Idx → EReal := m ((c.tc : Thread nD τ).loc main_arg4)
abbrev aMean (c : Dev nD) : SC.Idx → EReal := m ((c.tc : Thread nD τ).loc main_arg5)
abbrev aVar (c : Dev nD) : SC.Idx → EReal := m ((c.tc : Thread nD τ).loc main_arg6)
abbrev aW2 (c : Dev nD) : SW2.Idx → EReal := m ((c.tc : Thread nD τ).loc main_arg7)

/-- The block's result as this program computes it, on core c. -/
abbrev result (c : Dev nD) : SX.Idx → EReal :=
  G (aX m c) (aSkip m c) (aW1 m c) (aW2 m c) (aBeta m c) (aMean m c) (scaleDiv (aGamma m c) (aVar m c))

/-- The padded output at (n, co, h·14 + w) is G at (n, co, h, w). -/
theorem outArr_at (c : Dev nD) (n : Fin 32) (co : Fin 256) (h w : Fin 14) (t : Fin 256) (ht : t.val = h.val * 14 + w.val) :
    outArr m c (ix3 n co t) = result m c (ix4 n co h w) := by
  have hx : ∀ ci : Fin 256, vX m c (ix3 n ci t) = aX m c (ix4 n ci h w) := fun ci =>
    (congrFun (V_x m c) _).trans (padded_apply _ _ _ n ci h w t ht)
  have hs : ∀ cm : Fin 1024, vS m c (ix3 n cm t) = aSkip m c (ix4 n cm h w) := fun cm =>
    (congrFun (V_skip m c) _).trans (padded_apply _ _ _ n cm h w t ht)
  have hw1 : ∀ (cm : Fin 1024) (ci : Fin 256), vW1 m c (ix2 cm ci)
      = aW1 m c (ix4 cm ci 0 0) * scaleDiv (aGamma m c) (aVar m c) cm := fun cm ci =>
    (congrFun (V_w1 m c) _).trans (w1Scaled_apply _ _ _ cm ci)
  have hb : ∀ cm : Fin 1024, vB m c (ix2 cm (0 : Fin 1))
      = aBeta m c (ix1 cm) - aMean m c (ix1 cm) * scaleDiv (aGamma m c) (aVar m c) cm := fun cm =>
    (congrFun (V_bias m c) _).trans (biasCol_apply _ _ _ _ cm 0)
  have hw2 : ∀ cm : Fin 1024, vW2 m c (ix2 co cm) = aW2 m c (ix4 co cm 0 0) := fun cm =>
    (congrFun (V_w2 m c) _).trans (w2Mat_apply _ co cm)
  refine Eq.trans ?_ (G_eq_core (aX m c) (aSkip m c) (aW1 m c) (aW2 m c) (aBeta m c) (aMean m c)
    (scaleDiv (aGamma m c) (aVar m c)) n co h w).symm
  show core (fun ci => vX m c (ix3 n ci t)) (fun cm ci => vW1 m c (ix2 cm ci)) (fun cm => vB m c (ix2 cm (0 : Fin 1)))
      (fun cm => vS m c (ix3 n cm t)) (fun cm => vW2 m c (ix2 co cm)) = _
  exact core_congr (funext hx) (funext fun cm => funext fun ci => hw1 cm ci) (funext hb) (funext hs) (funext hw2)

/-- What the lines after the region leave in the program's result. -/
theorem tail_eq (c : Dev nD) :
    (Pipeline.afterTail₀ cfgs (dats m) 0 (V0 m) [hostOps1] c main_v20 : SX.Idx → EReal) = result m c := by
  have hW : Pipeline.withArrays (cfgs 0).spec c (V0 m c) (fun w => (dats m 0 c).arrAt w (cfgs 0).N)
      (Proc.devRef .tc main_v18) = outArr m c :=
    (Pipeline.withArrays_arr spec0 launch0.win.arr_inj c _ _ 5).trans (final m c)
  have e : (Pipeline.afterTail₀ cfgs (dats m) 0 (V0 m) [hostOps1] c main_v20 : SX.Idx → EReal)
      = shapeCast S32x256x14x14 (extractStridedSlice S32x256x196 ![0, 0, 0] (outArr m c) slices_S32x256x256_S32x256x196_0_0_0)
          shapeCasts_S32x256x196_S32x256x14x14 := by
    unfold Pipeline.afterTail₀
    show StableHlo.after hostOps1 _ (Proc.devRef .tc main_v20) = _
    after_results
    rw [hW]
    rfl
  rw [e]
  funext i
  obtain ⟨n, co, h, w, rfl⟩ : ∃ (n : Fin 32) (co : Fin 256) (h w : Fin 14), i = ix4 n co h w :=
    ⟨i 0, i 1, i 2, i 3, eq_ix4 i⟩
  have hlt : h.val * 14 + w.val < 196 := by have := h.isLt; have := w.isLt; omega
  refine (shapeCast_apply _ _ (ix4 n co h w) (ix3 n co (⟨h.val * 14 + w.val, hlt⟩ : Fin 196)) ?_).trans ?_
  · rw [Shape.rowMajor_val_three, Shape.rowMajor_val_four]
    show (n.val * 256 + co.val) * 196 + (h.val * 14 + w.val) = ((n.val * 256 + co.val) * 14 + h.val) * 14 + w.val
    generalize n.val * 256 + co.val = r
    omega
  refine (extractStridedSlice_apply _ _ _ (ix3 n co (⟨h.val * 14 + w.val, hlt⟩ : Fin 196))
    (ix3 n co (⟨h.val * 14 + w.val, by omega⟩ : Fin 256)) (fun a => by
      match a with
      | ⟨0, _⟩ => show n.val = 0 + n.val; omega
      | ⟨1, _⟩ => show co.val = 0 + co.val; omega
      | ⟨2, _⟩ => show h.val * 14 + w.val = 0 + (h.val * 14 + w.val); omega)).trans ?_
  exact outArr_at m c n co h w _ rfl

/-- THE RUN: every weakly fair execution terminates with the result at G of the arguments (quotient-form scale) and the
    eight arguments unchanged. -/
theorem run : θ_run (defs (F := Ideal)) (onTc (τ := τ) (main (F := Ideal))) ⟨m, fun _ => 0, ρ⟩ (fun r => ∀ c : Dev nD,
      r.2.mem ((c.tc : Thread nD τ).loc main_v20) = Cert.Bottleneck.G (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg4)) (m ((c.tc : Thread nD τ).loc main_arg5)) (Cert.Bottleneck.scaleDiv (m ((c.tc : Thread nD τ).loc main_arg3)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.ReferenceIdeal.RefValue

end
-- ==== Proof.lean ====
/-
  Two implementations of one residual bottleneck block agree on the extended reals.

  The block, for a pixel (n, h, w): a 1×1 convolution 256 → 1024 with an evaluation-mode batch norm folded into its
  rows (scale sc = γ / sqrt (var + ε), bias β − mean · sc), plus the skip activation, clipped below at zero, then a
  1×1 convolution 1024 → 256.  Spec.lean states it once as the function G of the arguments and of the scale vector.

  The first program lays pixels out as rows of a 6272-row matrix (channels last), runs eight row blocks, each as two
  whole matrix products, and computes the scale as γ · rsqrt (var + ε).  The second keeps channels first, pads the 196
  pixels of an image to 256 lanes, runs 32 × 2 blocks, accumulates the second product over four chunks of 256 middle
  channels starting from zero, and computes the scale as γ / sqrt (var + ε).

  Each program's result is G of its arguments with its own scale vector (KRun.lean for the first, RefRun.lean for the
  second): sums over the same index set in any grouping are one extended real, and so are products in either order; the
  padded lanes never reach a result entry.  The two scale vectors are one vector because the precondition makes the
  variance at least zero (PreRead.lean), so var + ε is a positive real or +∞, where the product with the reciprocal
  root is the quotient by the root (Spec.lean, scale_eq).  Without that the two differ: at var + ε below zero one scale
  is γ · (−∞) and the other γ / (−∞) = 0.

  The three frames are the generated ones; the idealization rewrote nothing, so its conjunct is trivial.
-/
import proofs.«148798_g2000004446570603_pallasbulk_806_6_alg».proof.Defs
import proofs.«148798_g2000004446570603_pallasbulk_806_6_alg».proof.Proof.Gen.Kernel
import proofs.«148798_g2000004446570603_pallasbulk_806_6_alg».proof.Proof.Gen.Kernel.Skeleton
import proofs.«148798_g2000004446570603_pallasbulk_806_6_alg».proof.Proof.Gen.Kernel.Launch
import proofs.«148798_g2000004446570603_pallasbulk_806_6_alg».proof.Proof.Gen.Kernel.Points
import proofs.«148798_g2000004446570603_pallasbulk_806_6_alg».proof.Proof.Gen.Kernel.Frame
import proofs.«148798_g2000004446570603_pallasbulk_806_6_alg».proof.Proof.Gen.KernelIdeal
import proofs.«148798_g2000004446570603_pallasbulk_806_6_alg».proof.Proof.Gen.KernelIdeal.Skeleton
import proofs.«148798_g2000004446570603_pallasbulk_806_6_alg».proof.Proof.Gen.KernelIdeal.Launch
import proofs.«148798_g2000004446570603_pallasbulk_806_6_alg».proof.Proof.Gen.KernelIdeal.Points
import proofs.«148798_g2000004446570603_pallasbulk_806_6_alg».proof.Proof.Gen.KernelIdeal.Frame
import proofs.«148798_g2000004446570603_pallasbulk_806_6_alg».proof.Proof.Gen.ReferenceIdeal
import proofs.«148798_g2000004446570603_pallasbulk_806_6_alg».proof.Proof.Gen.ReferenceIdeal.Skeleton
import proofs.«148798_g2000004446570603_pallasbulk_806_6_alg».proof.Proof.Gen.ReferenceIdeal.Launch
import proofs.«148798_g2000004446570603_pallasbulk_806_6_alg».proof.Proof.Gen.ReferenceIdeal.Points
import proofs.«148798_g2000004446570603_pallasbulk_806_6_alg».proof.Proof.Gen.ReferenceIdeal.Frame
import proofs.«148798_g2000004446570603_pallasbulk_806_6_alg».proof.Proof.Gen.Pre_finite_inputs
import proofs.«148798_g2000004446570603_pallasbulk_806_6_alg».proof.Proof.Spec
import proofs.«148798_g2000004446570603_pallasbulk_806_6_alg».proof.Proof.PreRead
import proofs.«148798_g2000004446570603_pallasbulk_806_6_alg».proof.Proof.KRun
import proofs.«148798_g2000004446570603_pallasbulk_806_6_alg».proof.Proof.RefRun
import Idealize.ShloMosaic.Adequacy
import Idealize.ShloMosaic.Init

noncomputable section

namespace Cert.Proof

open Idealize.ShloMosaic Idealize.SL.Sem

/-- The first program, at the bit level, runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the idealized second program. -/
theorem frame_referenceIdeal : Cert.frame_ReferenceIdeal := fun m ρ _ => Cert.ReferenceIdeal.Gen.frame m ρ

/-- The idealization rewrote no operation. -/
theorem preserves : Cert.preserves_Kernel_KernelIdeal := trivial

/-- From memories that agree on the arguments, and a variance that is nowhere negative, both programs end at the one
    function G of the arguments: the first with the scale γ · rsqrt (var + ε), the second with γ / sqrt (var + ε), which
    are one vector. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun r h c => ⟨(h c).1.trans ?_, (h c).2⟩)
    (Cert.ReferenceIdeal.RefValue.run m' ρ')
  obtain ⟨h0, h1, h2, h3, h4, h5, h6, h7⟩ := hagree c
  rw [h0, h1, h2, h3, h4, h5, h6, h7]
  show Cert.Bottleneck.G _ _ _ _ _ _ (Cert.Bottleneck.scaleDiv (Cert.KernelIdeal.KValue.aGamma m c) (Cert.KernelIdeal.KValue.aVar m c))
      = Cert.Bottleneck.G _ _ _ _ _ _ (Cert.Bottleneck.scaleMul (Cert.KernelIdeal.KValue.aGamma m c) (Cert.KernelIdeal.KValue.aVar m c))
  rw [Cert.Bottleneck.scaleMul_eq_scaleDiv _ _ (fun cm => Cert.PreRead.var_nonneg _ _ _ _ _ _ _ _ (hpre c) cm)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
